-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x768 : Shape := ⟨2, ![256, 768]⟩
abbrev S_ : Shape := ⟨0, ![]⟩

class Facts : Prop where
  bcast_S_S256x768 : S_.BroadcastsInDim S256x768 (![] : Fin 0 → Fin S256x768.rank)
  reducesTo_S256x768_S_d0_1 : S256x768.ReducesTo [0, 1] S_
  h_S_ : 0 < S_.numel

variable [Facts]

def fn {F : FTy → Type} [FloatOps F] (main_arg0 : FVec F S256x768 .f32) (main_arg1 : FVec F S256x768 .f32) : IVec S_ 1 :=
  let main_v0 : FVec F S256x768 .f32 := Host.absf main_arg0
  let main_cst : FVec F S_ .f32 := constant S_ .f32 0x7F800000#32
  let main_v1 : FVec F S256x768 .f32 := broadcastInDim S256x768 ![] bcast_S_S256x768 main_cst
  let main_v2 : IVec S256x768 1 := cmpf .olt main_v0 main_v1
  let main_c : IVec S_ 1 := constantI S_ 1 1#1
  let main_v3 : IVec S_ 1 := (fun x v => Host.reduce IntOp.andi x v reducesTo_S256x768_S_d0_1 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  main_v8
-- ==== Kernel.lean ====
abbrev S256x768 : Shape := ⟨2, ![256, 768]⟩
abbrev S1x1 : Shape := ⟨2, ![1, 1]⟩
abbrev S256x256 : Shape := ⟨2, ![256, 256]⟩
abbrev S256 : Shape := ⟨1, ![256]⟩
abbrev S256x1 : Shape := ⟨2, ![256, 1]⟩
abbrev S768x256 : Shape := ⟨2, ![768, 256]⟩
abbrev S1x256 : Shape := ⟨2, ![1, 256]⟩
abbrev S8x128 : Shape := ⟨2, ![8, 128]⟩
abbrev S8x128x1 : Shape := ⟨3, ![8, 128, 1]⟩
abbrev S8x1x128 : Shape := ⟨3, ![8, 1, 128]⟩
abbrev S8x128x128 : Shape := ⟨3, ![8, 128, 128]⟩
abbrev S8x1 : Shape := ⟨2, ![8, 1]⟩
abbrev S8x1x1 : Shape := ⟨3, ![8, 1, 1]⟩
abbrev S1x1x1 : Shape := ⟨3, ![1, 1, 1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S256x768, .f32⟩
  | .hbm, ⟨1, _⟩ => ⟨S256x768, .f32⟩
  | .hbm, ⟨2, _⟩ => ⟨S1x1, .f32⟩
  | .hbm, ⟨3, _⟩ => ⟨S_, .f32⟩
  | .local _ .vmem, ⟨0, _⟩ => ⟨S256x768, .f32⟩
  | .local _ .vmem, ⟨1, _⟩ => ⟨S256x768, .f32⟩
  | .local _ .vmem, ⟨2, _⟩ => ⟨S1x1, .f32⟩
  | .local _ .vmem, ⟨3, _⟩ => ⟨S256x256, .f32⟩
  | .local _ .vmem, ⟨4, _⟩ => ⟨S256x256, .f32⟩
  | _, _ => ⟨S256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![32, 2, 2], ![false, false, false]⟩

def k0_mult1 (i : grid0.Coords) : BitVec 32 :=
  let arg0 : BitVec 32 := BitVec.ofNat 32 (i 0).val
  let c8_i32 : BitVec 32 := 8#32
  let v7 : BitVec 32 := Scalar.muli arg0 c8_i32
  v7
def k0_mult2 (i : grid0.Coords) : BitVec 32 :=
  let arg1 : BitVec 32 := BitVec.ofNat 32 (i 1).val
  let c128_i32 : BitVec 32 := 128#32
  let v9 : BitVec 32 := Scalar.muli arg1 c128_i32
  v9
def k0_mult3 (i : grid0.Coords) : BitVec 32 :=
  let arg2 : BitVec 32 := BitVec.ofNat 32 (i 2).val
  let c128_i32_3 : BitVec 32 := 128#32
  let v11 : BitVec 32 := Scalar.muli arg2 c128_i32_3
  v11
def k0_off1 (i : grid0.Coords) : Fin 2 → Nat :=
  let arg0 : BitVec 32 := BitVec.ofNat 32 (i 0).val
  let c8_i32 : BitVec 32 := 8#32
  let v7 : BitVec 32 := Scalar.muli arg0 c8_i32
  let v8 : BitVec 32 := v7
  let v13 : Index := Scalar.indexCast v8
  let arg1 : BitVec 32 := BitVec.ofNat 32 (i 1).val
  let c128_i32 : BitVec 32 := 128#32
  let v9 : BitVec 32 := Scalar.muli arg1 c128_i32
  let v10 : BitVec 32 := v9
  let v14 : Index := Scalar.indexCast v10
  ![v13.toNat, v14.toNat]
def k0_off2 (i : grid0.Coords) : Fin 2 → Nat :=
  let arg0 : BitVec 32 := BitVec.ofNat 32 (i 0).val
  let c8_i32 : BitVec 32 := 8#32
  let v7 : BitVec 32 := Scalar.muli arg0 c8_i32
  let v8 : BitVec 32 := v7
  let v16 : Index := Scalar.indexCast v8
  let arg2 : BitVec 32 := BitVec.ofNat 32 (i 2).val
  let c128_i32_3 : BitVec 32 := 128#32
  let v11 : BitVec 32 := Scalar.muli arg2 c128_i32_3
  let v12 : BitVec 32 := v11
  let v17 : Index := Scalar.indexCast v12
  ![v16.toNat, v17.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

class Facts₀ : Prop where
  inb_S256x768_S256x768_0_0 : ∀ a, (![0, 0] : Fin 2 → Nat) a + S256x768.size a ≤ S256x768.size a
  h_S256x768 : 0 < S256x768.numel
  reduces_S256x768_S256 : S256x768.Reduces [1] S256
  shapeCasts_S256_S256x1 : S256.ShapeCasts S256x1
  transposes_S256x768_p1_0_S768x256 : S256x768.Transposes [1, 0] S768x256
  transposes_S256x1_p1_0_S1x256 : S256x1.Transposes [1, 0] S1x256
  broadcasts_S256x1_S256x256 : S256x1.Broadcasts S256x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x1_S1x1_0_0 : ∀ a, (![0, 0] : Fin 2 → Nat) a + S1x1.size a ≤ S1x1.size a
  h_S1x1 : 0 < S1x1.numel
  h_S8x128 : 0 < S8x128.numel
  shapeCasts_S8x128_S8x128x1 : S8x128.ShapeCasts S8x128x1
  shapeCasts_S8x128_S8x1x128 : S8x128.ShapeCasts S8x1x128
  broadcasts_S8x128x1_S8x128x128 : S8x128x1.Broadcasts S8x128x128
  broadcasts_S8x1x128_S8x128x128 : S8x1x128.Broadcasts S8x128x128
  iota_S8x128x128_d0_w32 : S8x128x128.Iotas .tc 32 [0]
  iota_S8x128x128_d1_w32 : S8x128x128.Iotas .tc 32 [1]
  iota_S8x128x128_d2_w32 : S8x128x128.Iotas .tc 32 [2]
  reduces_S8x128x128_S8x128 : S8x128x128.Reduces [2] S8x128
  reduces_S8x128x1_S8x1 : S8x128x1.Reduces [1] S8x1
  shapeCasts_S8x1_S8x1x1 : S8x1.ShapeCasts S8x1x1
  reduces_S8x1x1_S1x1 : S8x1x1.Reduces [0] S1x1
  shapeCasts_S1x1_S1x1x1 : S1x1.ShapeCasts S1x1x1
  shapeCasts_S1x1x1_S1x1 : S1x1x1.ShapeCasts S1x1
  shapeCasts_S1x1_S1x1 : S1x1.ShapeCasts S1x1
  shapeCasts_S1x1_S_ : S1x1.ShapeCasts S_
  dot_S256x768_S768x256_S256x256_1_0_0_1_n_n_wf : DotDims.WF S256x768 S768x256 S256x256 [1] [0] [0] [1] [] []
  hrank0 : 0 < grid0.rank
  k0_mult1_dvd : ∀ i : grid0.Coords, 8 ∣ (k0_mult1 i).toNat
  k0_mult2_dvd : ∀ i : grid0.Coords, 128 ∣ (k0_mult2 i).toNat
  k0_mult3_dvd : ∀ i : grid0.Coords, 128 ∣ (k0_mult3 i).toNat
  k0_off1_inb : ∀ i : grid0.Coords, ∀ a, (k0_off1 i) a + S8x128.size a ≤ S256x256.size a
  k0_off2_inb : ∀ i : grid0.Coords, ∀ a, (k0_off2 i) a + S8x128.size a ≤ S256x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S256x768.size a
  hwx0_0 : ∀ i : grid0.Coords, EltTy.bits .f32 = 32 ∨ (Rect.block (s := S256x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S256x768_S768x256_S256x256_1_0_0_1_n_n : DotDims S256x768 S768x256 S256x256 where
  lhsContracting := [1]
  rhsContracting := [0]
  lhsNonContracting := [0]
  rhsNonContracting := [1]
  lhsBatch := []
  rhsBatch := []
  wf := dot_S256x768_S768x256_S256x256_1_0_0_1_n_n_wf

abbrev win0_0 : Pipeline.Window sig grid0 :=
  Pipeline.Window.ofSpec (Memref.whole main_arg1) S256x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x768 : Shape := ⟨2, ![256, 768]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S768x256 : Shape := ⟨2, ![768, 256]⟩
abbrev S256x256x1 : Shape := ⟨3, ![256, 256, 1]⟩
abbrev S256x1x256 : Shape := ⟨3, ![256, 1, 256]⟩
abbrev S256x256x256 : Shape := ⟨3, ![256, 256, 256]⟩
abbrev S256x1x1 : Shape := ⟨3, ![256, 1, 1]⟩
abbrev S1x256x1 : Shape := ⟨3, ![1, 256, 1]⟩
abbrev S1x1x256 : Shape := ⟨3, ![1, 1, 256]⟩
abbrev S1x256x256 : Shape := ⟨3, ![1, 256, 256]⟩

abbrev nBuf : Space → Nat
  | .hbm => 128
  | .vmem => 0
  | .smem => 0
  | _ => 0

abbrev bufTy : (tb : Table) → Fin (tcTables nBuf tb) → BufTy
  | .hbm, ⟨0, _⟩ => ⟨S256x768, .f32⟩
  | .hbm, ⟨1, _⟩ => ⟨S256x768, .f32⟩
  | .hbm, ⟨2, _⟩ => ⟨S256x768, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S1x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S768x256, .f32⟩
  | .hbm, ⟨11, _⟩ => ⟨S256x256, .f32⟩
  | .hbm, ⟨12, _⟩ => ⟨S_, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .i1⟩
  | .hbm, ⟨22, _⟩ => ⟨S_, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .i1⟩
  | .hbm, ⟨29, _⟩ => ⟨S256x256, .f32⟩
  | .hbm, ⟨30, _⟩ => ⟨S_, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x768, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S1x256, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S768x256, .f32⟩
  | .hbm, ⟨43, _⟩ => ⟨S256x256, .f32⟩
  | .hbm, ⟨44, _⟩ => ⟨S_, .f32⟩
  | .hbm, ⟨45, _⟩ => ⟨S256x256, .f32⟩
  | .hbm, ⟨46, _⟩ => ⟨S256x256, .f32⟩
  | .hbm, ⟨47, _⟩ => ⟨S256x256, .f32⟩
  | .hbm, ⟨48, _⟩ => ⟨S_, .f32⟩
  | .hbm, ⟨49, _⟩ => ⟨S256x256, .f32⟩
  | .hbm, ⟨50, _⟩ => ⟨S256x256, .f32⟩
  | .hbm, ⟨51, _⟩ => ⟨S_, .f32⟩
  | .hbm, ⟨52, _⟩ => ⟨S256x256, .f32⟩
  | .hbm, ⟨53, _⟩ => ⟨S256x256, .i1⟩
  | .hbm, ⟨54, _⟩ => ⟨S_, .f32⟩
  | .hbm, ⟨55, _⟩ => ⟨S_, .f32⟩
  | .hbm, ⟨56, _⟩ => ⟨S256x256, .f32⟩
  | .hbm, ⟨57, _⟩ => ⟨S256x256, .f32⟩
  | .hbm, ⟨58, _⟩ => ⟨S_, .f32⟩
  | .hbm, ⟨59, _⟩ => ⟨S256x256, .f32⟩
  | .hbm, ⟨60, _⟩ => ⟨S256x256, .i1⟩
  | .hbm, ⟨61, _⟩ => ⟨S256x256, .f32⟩
  | .hbm, ⟨62, _⟩ => ⟨S_, .f32⟩
  | .hbm, ⟨63, _⟩ => ⟨S_, .f32⟩
  | .hbm, ⟨64, _⟩ => ⟨S256x256, .f32⟩
  | .hbm, ⟨65, _⟩ => ⟨S256x256, .f32⟩
  | .hbm, ⟨66, _⟩ => ⟨S256x256x1, .f32⟩
  | .hbm, ⟨67, _⟩ => ⟨S256x1x256, .f32⟩
  | .hbm, ⟨68, _⟩ => ⟨S256x256x1, .f32⟩
  | .hbm, ⟨69, _⟩ => ⟨S256x1x256, .f32⟩
  | .hbm, ⟨70, _⟩ => ⟨S256x256x256, .f32⟩
  | .hbm, ⟨71, _⟩ => ⟨S256x256x256, .f32⟩
  | .hbm, ⟨72, _⟩ => ⟨S256x256x256, .i1⟩
  | .hbm, ⟨73, _⟩ => ⟨S256x256x256, .f32⟩
  | .hbm, ⟨74, _⟩ => ⟨S256x256x256, .f32⟩
  | .hbm, ⟨75, _⟩ => ⟨S256x256x256, .f32⟩
  | .hbm, ⟨76, _⟩ => ⟨S_, .f32⟩
  | .hbm, ⟨77, _⟩ => ⟨S256x256x256, .f32⟩
  | .hbm, ⟨78, _⟩ => ⟨S256x256x256, .f32⟩
  | .hbm, ⟨79, _⟩ => ⟨S_, .f32⟩
  | .hbm, ⟨80, _⟩ => ⟨S256x256x256, .f32⟩
  | .hbm, ⟨81, _⟩ => ⟨S256x256x256, .f32⟩
  | .hbm, ⟨82, _⟩ => ⟨S256x256x256, .f32⟩
  | .hbm, ⟨83, _⟩ => ⟨S256x256x256, .f32⟩
  | .hbm, ⟨84, _⟩ => ⟨S256x256x256, .i1⟩
  | .hbm, ⟨85, _⟩ => ⟨S256x256x256, .f32⟩
  | .hbm, ⟨86, _⟩ => ⟨S256x256x256, .f32⟩
  | .hbm, ⟨87, _⟩ => ⟨S256x256x256, .f32⟩
  | .hbm, ⟨88, _⟩ => ⟨S_, .f32⟩
  | .hbm, ⟨89, _⟩ => ⟨S256x256x256, .f32⟩
  | .hbm, ⟨90, _⟩ => ⟨S256x256x256, .f32⟩
  | .hbm, ⟨91, _⟩ => ⟨S_, .f32⟩
  | .hbm, ⟨92, _⟩ => ⟨S256x256x256, .f32⟩
  | .hbm, ⟨93, _⟩ => ⟨S256x256x256, .f32⟩
  | .hbm, ⟨94, _⟩ => ⟨S256x256x256, .f32⟩
  | .hbm, ⟨95, _⟩ => ⟨S256x256x256, .f32⟩
  | .hbm, ⟨96, _⟩ => ⟨S256x256x256, .f32⟩
  | .hbm, ⟨97, _⟩ => ⟨S256x256x256, .f32⟩
  | .hbm, ⟨98, _⟩ => ⟨S256x256x256, .f32⟩
  | .hbm, ⟨99, _⟩ => ⟨S256x256x256, .f32⟩
  | .hbm, ⟨100, _⟩ => ⟨S256, .i32⟩
  | .hbm, ⟨101, _⟩ => ⟨S256x1x1, .i32⟩
  | .hbm, ⟨102, _⟩ => ⟨S256, .i32⟩
  | .hbm, ⟨103, _⟩ => ⟨S1x256x1, .i32⟩
  | .hbm, ⟨104, _⟩ => ⟨S256, .i32⟩
  | .hbm, ⟨105, _⟩ => ⟨S1x1x256, .i32⟩
  | .hbm, ⟨106, _⟩ => ⟨S1x256x256, .i32⟩
  | .hbm, ⟨107, _⟩ => ⟨S1x256x256, .i32⟩
  | .hbm, ⟨108, _⟩ => ⟨S1x256x256, .i1⟩
  | .hbm, ⟨109, _⟩ => ⟨S256x256x1, .i32⟩
  | .hbm, ⟨110, _⟩ => ⟨S256x256x1, .i32⟩
  | .hbm, ⟨111, _⟩ => ⟨S256x256x1, .i1⟩
  | .hbm, ⟨112, _⟩ => ⟨S256x256x256, .i1⟩
  | .hbm, ⟨113, _⟩ => ⟨S256x256x256, .i1⟩
  | .hbm, ⟨114, _⟩ => ⟨S256x256x256, .i1⟩
  | .hbm, ⟨115, _⟩ => ⟨S256x1x256, .i32⟩
  | .hbm, ⟨116, _⟩ => ⟨S256x1x256, .i32⟩
  | .hbm, ⟨117, _⟩ => ⟨S256x1x256, .i1⟩
  | .hbm, ⟨118, _⟩ => ⟨S256x256x256, .i1⟩
  | .hbm, ⟨119, _⟩ => ⟨S256x256x256, .i1⟩
  | .hbm, ⟨120, _⟩ => ⟨S_, .f32⟩
  | .hbm, ⟨121, _⟩ => ⟨S_, .f32⟩
  | .hbm, ⟨122, _⟩ => ⟨S256x256x256, .f32⟩
  | .hbm, ⟨123, _⟩ => ⟨S256x256x256, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_call2_v0 : Ref sig .tc := ⟨.hbm, 55, rfl⟩
abbrev main_call2_v1 : Ref sig .tc := ⟨.hbm, 56, rfl⟩
abbrev main_v37 : Ref sig .tc := ⟨.hbm, 57, rfl⟩
abbrev main_cst_11 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_12 : Ref sig .tc := ⟨.hbm, 62, rfl⟩
abbrev main_call3_v0 : Ref sig .tc := ⟨.hbm, 63, rfl⟩
abbrev main_call3_v1 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_call4_cst : Ref sig .tc := ⟨.hbm, 79, rfl⟩
abbrev main_call4_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_v62 : Ref sig .tc := ⟨.hbm, 90, rfl⟩
abbrev main_call5_cst : Ref sig .tc := ⟨.hbm, 91, rfl⟩
abbrev main_call5_v0 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_15 : Ref sig .tc := ⟨.hbm, 120, rfl⟩
abbrev main_call8_v0 : Ref sig .tc := ⟨.hbm, 121, rfl⟩
abbrev main_call8_v1 : Ref sig .tc := ⟨.hbm, 122, rfl⟩
abbrev main_v90 : Ref sig .tc := ⟨.hbm, 123, rfl⟩
abbrev main_cst_16 : Ref sig .tc := ⟨.hbm, 124, rfl⟩
abbrev main_v91 : Ref sig .tc := ⟨.hbm, 125, rfl⟩
abbrev main_cst_17 : Ref sig .tc := ⟨.hbm, 126, rfl⟩
abbrev main_v92 : Ref sig .tc := ⟨.hbm, 127, rfl⟩

abbrev nD : Nat := 1
abbrev τ : Topo := Topo.v7x

variable {F : FTy → Type} [FloatOps F]

class Facts₀ : Prop where
  reducesTo_S256x768_S256_d1 : S256x768.ReducesTo [1] S256
  h_S_ : 0 < S_.numel
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  transposes_S256x768_S768x256_1_0 : S256x768.Transposes [1, 0] S768x256
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S256x256_S256x1x256_0_2 : S256x256.BroadcastsInDim S256x1x256 (![0, 2] : Fin 2 → Fin S256x1x256.rank)
  bcast_S256x256x1_S256x256x256_0_1_2 : S256x256x1.BroadcastsInDim S256x256x256 (![0, 1, 2] : Fin 3 → Fin S256x256x256.rank)
  bcast_S256x1x256_S256x256x256_0_1_2 : S256x1x256.BroadcastsInDim S256x256x256 (![0, 1, 2] : Fin 3 → Fin S256x256x256.rank)
  bcast_S_S256x256x256 : S_.BroadcastsInDim S256x256x256 (![] : Fin 0 → Fin S256x256x256.rank)
  bcast_S256_S256x1x1_0 : S256.BroadcastsInDim S256x1x1 (![0] : Fin 1 → Fin S256x1x1.rank)
  bcast_S256_S1x256x1_1 : S256.BroadcastsInDim S1x256x1 (![1] : Fin 1 → Fin S1x256x1.rank)
  bcast_S256_S1x1x256_2 : S256.BroadcastsInDim S1x1x256 (![2] : Fin 1 → Fin S1x1x256.rank)
  bcast_S1x256x1_S1x256x256_0_1_2 : S1x256x1.BroadcastsInDim S1x256x256 (![0, 1, 2] : Fin 3 → Fin S1x256x256.rank)
  bcast_S1x1x256_S1x256x256_0_1_2 : S1x1x256.BroadcastsInDim S1x256x256 (![0, 1, 2] : Fin 3 → Fin S1x256x256.rank)
  bcast_S256x1x1_S256x256x1_0_1_2 : S256x1x1.BroadcastsInDim S256x256x1 (![0, 1, 2] : Fin 3 → Fin S256x256x1.rank)
  bcast_S1x256x1_S256x256x1_0_1_2 : S1x256x1.BroadcastsInDim S256x256x1 (![0, 1, 2] : Fin 3 → Fin S256x256x1.rank)
  bcast_S1x256x256_S256x256x256_0_1_2 : S1x256x256.BroadcastsInDim S256x256x256 (![0, 1, 2] : Fin 3 → Fin S256x256x256.rank)
  bcast_S256x1x1_S256x1x256_0_1_2 : S256x1x1.BroadcastsInDim S256x1x256 (![0, 1, 2] : Fin 3 → Fin S256x1x256.rank)
  bcast_S1x1x256_S256x1x256_0_1_2 : S1x1x256.BroadcastsInDim S256x1x256 (![0, 1, 2] : Fin 3 → Fin S256x1x256.rank)
  reducesTo_S256x256x256_S_d0_1_2 : S256x256x256.ReducesTo [0, 1, 2] S_
  dot_S256x768_S768x256_S256x256_1_0_0_1_n_n_wf : DotDims.WF S256x768 S768x256 S256x256 [1] [0] [0] [1] [] []

variable [Facts₀]

def dot_S256x768_S768x256_S256x256_1_0_0_1_n_n : DotDims S256x768 S768x256 S256x256 where
  lhsContracting := [1]
  rhsContracting := [0]
  lhsNonContracting := [0]
  rhsNonContracting := [1]
  lhsBatch := []
  rhsBatch := []
  wf := dot_S256x768_S768x256_S256x256_1_0_0_1_n_n_wf

class Facts : Prop extends Facts₀ where

variable [Facts]
-- ==== Proof.Pieces.lean ====
/-
  What one run of the kernel body leaves behind, case by case, as closed terms.

  The body keeps two 256 × 256 scratch matrices (the distance matrices of the two token arrays) and a 1 × 1
  accumulator. At the first grid point it computes both matrices from the token arrays and zeroes the accumulator;
  at every point it reads an 8 × 128 block of each matrix at the tile's (row, j-column) offset and another at the
  (row, k-column) offset, and adds the tile's masked sum to the accumulator; at the last point it divides the
  accumulator by the count. `step` is that one addition as a function of the two matrices and the accumulator.
-/
import proofs.«124389_j69647189671965_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz2 : (![0, 0] : Fin 2 → Nat) = fun _ => 0 := funext fun a => by fin_cases a <;> rfl

/-- A buffer that one store has just filled whole reads as what was stored. -/
theorem read_filled {sig : RefSig} {κ : Kind} {sp : Space} {S : Shape} {e : EltTy}
    (v : View sig κ sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _,
    View.mem_set_unit_zero h inb y⟩), View.canon_unit_zero h]

/-- The distance matrix of the first token array, as the body computes it. -/
abbrev dmat0 (x0 : Vec F S256x768 .f32) : FVec F S256x256 .f32 := k0_pay3 x0
/-- The distance matrix of the second token array, as the body computes it. -/
abbrev dmat1 (x1 : Vec F S256x768 .f32) : FVec F S256x256 .f32 := k0_pay6 (k0_pay4 x1) (k0_pay5 (F := F))

/-- One run's store into the accumulator: the accumulator plus the tile's masked sum, from blocks of the two
    matrices `E`, `G` at the tile's offsets. -/
def step (i : grid0.Coords) (E G : Vec F S256x256 .f32) (acc : Vec F S1x1 .f32) : FVec F S1x1 .f32 :=
  k0_pay1 (Scalar.muli (BitVec.ofNat 32 (i 0).val) 8#32) (Scalar.muli (BitVec.ofNat 32 (i 1).val) 128#32)
    (Scalar.muli (BitVec.ofNat 32 (i 2).val) 128#32)
    (k0_pay8 (View.ld E (Rect.unit (s := S256x256) (k0_off1 i) S8x128.size (Facts₀.k0_off1_inb i))))
    (k0_pay9 (View.ld E (Rect.unit (s := S256x256) (k0_off2 i) S8x128.size (Facts₀.k0_off2_inb i))))
    (k0_pay12 (View.ld G (Rect.unit (s := S256x256) (k0_off1 i) S8x128.size (Facts₀.k0_off1_inb i))) (View.ld G (Rect.unit (s := S256x256) (k0_off2 i) S8x128.size (Facts₀.k0_off2_inb i))))
    (k0_pay13 (View.ld G (Rect.unit (s := S256x256) (k0_off1 i) S8x128.size (Facts₀.k0_off1_inb i))) (View.ld G (Rect.unit (s := S256x256) (k0_off2 i) S8x128.size (Facts₀.k0_off2_inb i))))
    (k0_pay14 (View.ld G (Rect.unit (s := S256x256) (k0_off1 i) S8x128.size (Facts₀.k0_off1_inb i))))
    (k0_pay15 (View.ld G (Rect.unit (s := S256x256) (k0_off2 i) S8x128.size (Facts₀.k0_off2_inb i))))
    acc

/-- The first point leaves the first matrix in the first scratch buffer, -/
theorem sout_A_0 (c : Dev nD) (i : grid0.Coords) (arg3 : Memref sig .tc .vmem S256x768 .f32) (harg3 : arg3.IsWhole) (arg4 : Memref sig .tc .vmem S256x768 .f32) (harg4 : arg4.IsWhole) (arg5 : Memref sig .tc .vmem S1x1 .f32) (harg5 : arg5.IsWhole) (arg6 : Memref sig .tc .vmem S256x256 .f32) (harg6 : arg6.IsWhole) (arg7 : Memref sig .tc .vmem S256x256 .f32) (harg7 : arg7.IsWhole) (hc0 : cond0_0 i) (hc1 : ¬cond0_1 i) (x0 x1 : Vec F S256x768 .f32) :
    sout0_A_0 c i arg3 harg3 arg4 harg4 arg5 harg5 arg6 harg6 arg7 harg7 hc0 hc1 x0 x1 = dmat0 x0 := by
  unfold sout0_A_0
  rw [View.read_writes_eq_canon _ _ _ (scover0_A_0 c i arg3 harg3 arg4 harg4 arg5 harg5 arg6 harg6 arg7 harg7 hc0 hc1 x0 x1)]
  unfold kernelRun0_A
  dsimp only
  sl_unfold_run_names
  rw [View.canon_unit_zero hz2]
  simp only [View.readAt_eq_ld, harg3.read_unread, View.ld_unit_zero (S := S256x768) hz2]

/-- the second matrix in the second, -/
theorem sout_A_1 (c : Dev nD) (i : grid0.Coords) (arg3 : Memref sig .tc .vmem S256x768 .f32) (harg3 : arg3.IsWhole) (arg4 : Memref sig .tc .vmem S256x768 .f32) (harg4 : arg4.IsWhole) (arg5 : Memref sig .tc .vmem S1x1 .f32) (harg5 : arg5.IsWhole) (arg6 : Memref sig .tc .vmem S256x256 .f32) (harg6 : arg6.IsWhole) (arg7 : Memref sig .tc .vmem S256x256 .f32) (harg7 : arg7.IsWhole) (hc0 : cond0_0 i) (hc1 : ¬cond0_1 i) (x0 x1 : Vec F S256x768 .f32) :
    sout0_A_1 c i arg3 harg3 arg4 harg4 arg5 harg5 arg6 harg6 arg7 harg7 hc0 hc1 x0 x1 = dmat1 x1 := by
  unfold sout0_A_1
  rw [View.read_writes_eq_canon _ _ _ (scover0_A_1 c i arg3 harg3 arg4 harg4 arg5 harg5 arg6 harg6 arg7 harg7 hc0 hc1 x0 x1)]
  unfold kernelRun0_A
  dsimp only
  sl_unfold_run_names
  rw [View.canon_unit_zero hz2]
  simp only [View.readAt_eq_ld, harg4.read_unread, View.ld_unit_zero (S := S256x768) hz2]

/-- and in the accumulator one step from the zero block over those two matrices. -/
theorem out_A_2 (c : Dev nD) (i : grid0.Coords) (arg3 : Memref sig .tc .vmem S256x768 .f32) (harg3 : arg3.IsWhole) (arg4 : Memref sig .tc .vmem S256x768 .f32) (harg4 : arg4.IsWhole) (arg5 : Memref sig .tc .vmem S1x1 .f32) (harg5 : arg5.IsWhole) (arg6 : Memref sig .tc .vmem S256x256 .f32) (harg6 : arg6.IsWhole) (arg7 : Memref sig .tc .vmem S256x256 .f32) (harg7 : arg7.IsWhole) (hc0 : cond0_0 i) (hc1 : ¬cond0_1 i) (x0 x1 : Vec F S256x768 .f32) :
    out0_A_2 c i arg3 harg3 arg4 harg4 arg5 harg5 arg6 harg6 arg7 harg7 hc0 hc1 x0 x1 = step i (dmat0 x0) (dmat1 x1) (k0_pay7 (F := F)) := by
  unfold out0_A_2
  rw [View.read_writes_eq_canon _ _ _ (cover0_A_2 c i arg3 harg3 arg4 harg4 arg5 harg5 arg6 harg6 arg7 harg7 hc0 hc1 x0 x1)]
  unfold kernelRun0_A
  dsimp only
  sl_unfold_run_names
  rw [View.canon_cons_unit_zero (S := S1x1) hz2, View.readCov_unit_zero (S := S1x1) _ hz2]
  simp only [View.readAt_eq_ld, read_filled (S := S256x256) _ _ hz2, harg3.read_unread, harg4.read_unread,
    View.ld_unit_zero (S := S256x768) hz2]
  rfl

/-- A middle point leaves one step from what the point before left, the matrices as they were. -/
theorem out_B_2 (c : Dev nD) (i : grid0.Coords) (arg3 : Memref sig .tc .vmem S256x768 .f32) (harg3 : arg3.IsWhole) (arg4 : Memref sig .tc .vmem S256x768 .f32) (harg4 : arg4.IsWhole) (arg5 : Memref sig .tc .vmem S1x1 .f32) (harg5 : arg5.IsWhole) (arg6 : Memref sig .tc .vmem S256x256 .f32) (harg6 : arg6.IsWhole) (arg7 : Memref sig .tc .vmem S256x256 .f32) (harg7 : arg7.IsWhole) (hc0 : ¬cond0_0 i) (hc1 : ¬cond0_1 i) (x0 x1 : Vec F S256x768 .f32)
    (xo2 : Vec F S1x1 .f32) (xs0 xs1 : Vec F S256x256 .f32) :
    out0_B_2 c i arg3 harg3 arg4 harg4 arg5 harg5 arg6 harg6 arg7 harg7 hc0 hc1 x0 x1 xo2 xs0 xs1 = step i xs0 xs1 xo2 := by
  unfold out0_B_2
  rw [View.read_writes_eq_canon _ _ _ (cover0_B_2 c i arg3 harg3 arg4 harg4 arg5 harg5 arg6 harg6 arg7 harg7 hc0 hc1 x0 x1 xo2 xs0 xs1)]
  unfold kernelRun0_B
  dsimp only
  sl_unfold_run_names
  rw [View.canon_unit_zero (S := S1x1) hz2]
  simp only [View.readAt_eq_ld, harg5.read_unread, harg6.read_unread, harg7.read_unread,
    View.ld_unit_zero (S := S1x1) hz2]
  rfl

/-- The last point leaves that step's result divided by the count. -/
theorem out_C_2 (c : Dev nD) (i : grid0.Coords) (arg3 : Memref sig .tc .vmem S256x768 .f32) (harg3 : arg3.IsWhole) (arg4 : Memref sig .tc .vmem S256x768 .f32) (harg4 : arg4.IsWhole) (arg5 : Memref sig .tc .vmem S1x1 .f32) (harg5 : arg5.IsWhole) (arg6 : Memref sig .tc .vmem S256x256 .f32) (harg6 : arg6.IsWhole) (arg7 : Memref sig .tc .vmem S256x256 .f32) (harg7 : arg7.IsWhole) (hc0 : ¬cond0_0 i) (hc1 : cond0_1 i) (x0 x1 : Vec F S256x768 .f32)
    (xo2 : Vec F S1x1 .f32) (xs0 xs1 : Vec F S256x256 .f32) :
    out0_C_2 c i arg3 harg3 arg4 harg4 arg5 harg5 arg6 harg6 arg7 harg7 hc0 hc1 x0 x1 xo2 xs0 xs1 = k0_pay2 (step i xs0 xs1 xo2) := by
  unfold out0_C_2
  rw [View.read_writes_eq_canon _ _ _ (cover0_C_2 c i arg3 harg3 arg4 harg4 arg5 harg5 arg6 harg6 arg7 harg7 hc0 hc1 x0 x1 xo2 xs0 xs1)]
  unfold kernelRun0_C
  dsimp only
  sl_unfold_run_names
  rw [View.canon_cons_unit_zero (S := S1x1) hz2, View.readCov_unit_zero (S := S1x1) _ hz2]
  simp only [View.readAt_eq_ld, harg5.read_unread, harg6.read_unread, harg7.read_unread,
    View.ld_unit_zero (S := S1x1) hz2]
  rfl

end Cert.KernelIdeal.Body

end
-- ==== Proof.Spec.lean ====
/-
  The triplet ranking loss as one function of the two token arrays, over the extended reals.

  For a token array x : [256, 768] the distance matrix is
      dist x i j = sqrt (max (|x_i|² + |x_j|² − 2 ⟨x_i, x_j⟩) 0)   (0 where the radicand is not positive),
  and for the two matrices E = dist ehr, G = dist img the loss of a triple (i, j, k) is
      max (G i j − G i k + margin) 0   if E i j < E i k,
      max (G i k − G i j + margin) 0   if E i k < E i j,
      |G i j − G i k|                  otherwise,
  counted only when j < k, i ≠ j and i ≠ k. The result is the sum of the counted losses over all 256³ triples,
  divided by the number of counted triples, 256 · 255 · 254 / 2 = 8290560.

  The second half is the one law the comparison needs: a sum over the cube of triples may be taken tile by tile —
  32 × 2 × 2 tiles of 8 × 128 × 128 triples, the tiles in any order — because addition of extended reals is
  commutative and associative. Nothing here needs the entries to be finite.
-/
import Idealize.ShloMosaic.PureOps.Ideal
import Idealize.ShloMosaic.PureOps.Ideal.Laws
import Idealize.ShloMosaic.Lib.ValueIdx

noncomputable section

namespace Cert.Triplet

open Idealize.ShloMosaic Idealize.ShloMosaic.ValueIdx

/-- A float, read exactly: an extended real. -/
abbrev R : Type := Ideal .f32

/-- The shape of a token array, and of a distance matrix. -/
abbrev Tok : Shape := ⟨2, ![256, 768]⟩
abbrev Sq : Shape := ⟨2, ![256, 256]⟩

/-- The constants, as the patterns both programs write: 0, 1, 2, the margin 0.2 (rounded to f32) and the count 8290560. -/
abbrev zero : R := Ideal.ofBits .f32 0x00000000#32
abbrev one : R := Ideal.ofBits .f32 0x3F800000#32
abbrev two : R := Ideal.ofBits .f32 0x40000000#32
abbrev margin : R := Ideal.ofBits .f32 0x3E4CCCCD#32
abbrev count : R := Ideal.ofBits .f32 0x4AFD0200#32

/-! ## The distance matrix -/

/-- The squared norm of row `i`. -/
def sqn (x : Tok.Idx → R) (i : Fin 256) : R := ∑ k : Fin 768, x (ix2 i k) * x (ix2 i k)

/-- The inner product of rows `i` and `j`. -/
def gram (x : Tok.Idx → R) (i j : Fin 256) : R := ∑ k : Fin 768, x (ix2 i k) * x (ix2 j k)

/-- The squared distance of rows `i` and `j`, cut off below at zero. -/
def d2 (x : Tok.Idx → R) (i j : Fin 256) : R := max (sqn x i + sqn x j - two * gram x i j) zero

/-- The distance of rows `i` and `j`: the root of the squared distance where that is positive, else zero. -/
def dist (x : Tok.Idx → R) (i j : Fin 256) : R :=
  Scalar.select (Ideal.cmp .ogt (d2 x i j) zero)
    (Ideal.sqrt (Scalar.select (Ideal.cmp .ogt (d2 x i j) zero) (d2 x i j) one)) zero

/-- The distance matrix as an array. -/
def distArr (x : Tok.Idx → R) : Sq.Idx → R := fun j => dist x (j 0) (j 1)

theorem distArr_apply (x : Tok.Idx → R) (i j : Fin 256) : distArr x (ix2 i j) = dist x i j := rfl

/-! ## The loss of one triple -/

/-- The loss of the triple (i, j, k), from the two distance matrices. -/
def lossAt (E G : Sq.Idx → R) (i j k : Fin 256) : R :=
  Scalar.select (Ideal.cmp .olt (E (ix2 i j)) (E (ix2 i k)))
    (max (G (ix2 i j) - G (ix2 i k) + margin) zero)
    (Scalar.select (Ideal.cmp .olt (E (ix2 i k)) (E (ix2 i j)))
      (max (G (ix2 i k) - G (ix2 i j) + margin) zero)
      (max (G (ix2 i j) - G (ix2 i k)) (-(G (ix2 i j) - G (ix2 i k)))))

/-- Whether a triple is counted: j < k, i ≠ j, i ≠ k, on the 32-bit numbers of the three positions. -/
def counted (i j k : BitVec 32) : BitVec 1 :=
  IntOp.andi (IntOp.andi (IntOp.cmpi .slt j k) (IntOp.cmpi .ne i j)) (IntOp.cmpi .ne i k)

/-- A position's 32-bit number. -/
abbrev num (i : Fin 256) : BitVec 32 := BitVec.ofNat 32 i.val

/-- What the triple (i, j, k) adds to the sum: its loss if it is counted, else zero. -/
def termAt (E G : Sq.Idx → R) (i j k : Fin 256) : R :=
  Scalar.select (counted (num i) (num j) (num k)) (lossAt E G i j k) zero

/-- The sum over all triples. -/
def total (E G : Sq.Idx → R) : R := ∑ i : Fin 256, ∑ j : Fin 256, ∑ k : Fin 256, termAt E G i j k

/-- The loss: the sum (started from zero) over the count. -/
def loss (img ehr : Tok.Idx → R) : R := Ideal.div (zero + total (distArr ehr) (distArr img)) count

/-! ## A sum over the cube, tile by tile -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Position `r` of block `q`, blocks of `n` positions: `n q + r`. -/
def at_ {m n : Nat} (q : Fin m) (r : Fin n) : Fin (m * n) :=
  ⟨n * q.val + r.val, by
    have h1 := q.isLt; have h2 := r.isLt
    calc n * q.val + r.val < n * q.val + n := by omega
      _ = n * (q.val + 1) := by ring
      _ ≤ n * m := Nat.mul_le_mul_left _ h1
      _ = m * n := Nat.mul_comm _ _⟩

/-- A sum over `m n` positions is the sum over the `m` blocks of the sums over each block's `n` positions. -/
theorem sum_blocks {M : Type*} [AddCommMonoid M] {m n : Nat} (f : Fin (m * n) → M) :
    ∑ i, f i = ∑ q : Fin m, ∑ r : Fin n, f (at_ q r) := by
  rw [← Equiv.sum_comp finProdFinEquiv f, Fintype.sum_prod_type]
  refine Finset.sum_congr rfl fun q _ => Finset.sum_congr rfl fun r _ => congrArg f (Fin.ext ?_)
  simp [finProdFinEquiv, at_]
  ring

/-! ## The kernel's tiles -/

/-- Row `r` of row tile `q` (tiles of 8 rows). -/
def row (q : Fin 32) (r : Fin 8) : Fin 256 := ⟨8 * q.val + r.val, by have := q.isLt; have := r.isLt; omega⟩

/-- Column `r` of column tile `q` (tiles of 128 columns). -/
def col (q : Fin 2) (r : Fin 128) : Fin 256 := ⟨128 * q.val + r.val, by have := q.isLt; have := r.isLt; omega⟩

/-- The grid point of the tile (t0, t1, t2), points numbered row-major over the 32 × 2 × 2 grid. -/
def pt (t0 : Fin 32) (t1 t2 : Fin 2) : Fin 128 :=
  ⟨4 * t0.val + 2 * t1.val + t2.val, by have := t0.isLt; have := t1.isLt; have := t2.isLt; omega⟩

theorem sum_rows {M : Type*} [AddCommMonoid M] (g : Fin 256 → M) :
    ∑ i, g i = ∑ q : Fin 32, ∑ r : Fin 8, g (row q r) := sum_blocks (m := 32) (n := 8) g

theorem sum_cols {M : Type*} [AddCommMonoid M] (g : Fin 256 → M) :
    ∑ i, g i = ∑ q : Fin 2, ∑ r : Fin 128, g (col q r) := sum_blocks (m := 2) (n := 128) g

/-- A sum over the 128 grid points is the sum over the tiles' three coordinates. -/
theorem sum_points {M : Type*} [AddCommMonoid M] (g : Fin 128 → M) :
    ∑ s, g s = ∑ t0 : Fin 32, ∑ t1 : Fin 2, ∑ t2 : Fin 2, g (pt t0 t1 t2) := by
  rw [sum_blocks (m := 64) (n := 2) g, sum_blocks (m := 32) (n := 2) (fun q => ∑ t2 : Fin 2, g (at_ q t2))]
  refine Finset.sum_congr rfl fun t0 _ => Finset.sum_congr rfl fun t1 _ => Finset.sum_congr rfl fun t2 _ =>
    congrArg g (Fin.ext ?_)
  simp only [at_, pt]
  omega

/-- The sum over the cube of triples, regrouped by tile. -/
theorem sum_cube_tiles {M : Type*} [AddCommMonoid M] (f : Fin 256 → Fin 256 → Fin 256 → M) :
    ∑ i, ∑ j, ∑ k, f i j k
      = ∑ t0 : Fin 32, ∑ t1 : Fin 2, ∑ t2 : Fin 2, ∑ a : Fin 8, ∑ b : Fin 128, ∑ c : Fin 128,
          f (row t0 a) (col t1 b) (col t2 c) := by
  rw [sum_rows]
  refine Finset.sum_congr rfl fun t0 _ => ?_
  have h1 : ∀ a : Fin 8, ∑ j, ∑ k, f (row t0 a) j k
      = ∑ t1 : Fin 2, ∑ t2 : Fin 2, ∑ b : Fin 128, ∑ c : Fin 128, f (row t0 a) (col t1 b) (col t2 c) := by
    intro a
    rw [sum_cols]
    refine Finset.sum_congr rfl fun t1 _ => ?_
    conv_rhs => rw [Finset.sum_comm]
    exact Finset.sum_congr rfl fun b _ => sum_cols _
  rw [Finset.sum_congr rfl fun a _ => h1 a, Finset.sum_comm]
  exact Finset.sum_congr rfl fun t1 _ => Finset.sum_comm

/-- What one tile adds: the sum of its 8 × 128 × 128 triples' terms. -/
def tileSum (E G : Sq.Idx → R) (t0 : Fin 32) (t1 t2 : Fin 2) : R :=
  ∑ a : Fin 8, ∑ b : Fin 128, ∑ c : Fin 128, termAt E G (row t0 a) (col t1 b) (col t2 c)

/-- The tiles' sums, over all grid points, are the sum over all triples. -/
theorem sum_tiles (E G : Sq.Idx → R) : ∑ s : Fin 128, (fun t0 t1 t2 => tileSum E G t0 t1 t2) ⟨s.val / 4, by have := s.isLt; omega⟩
      ⟨s.val / 2 % 2, Nat.mod_lt _ (by decide)⟩ ⟨s.val % 2, Nat.mod_lt _ (by decide)⟩ = total E G := by
  rw [sum_points]
  unfold total tileSum
  rw [sum_cube_tiles]
  refine Finset.sum_congr rfl fun t0 _ => Finset.sum_congr rfl fun t1 _ => Finset.sum_congr rfl fun t2 _ => ?_
  have h0 : (⟨(pt t0 t1 t2).val / 4, by have := (pt t0 t1 t2).isLt; omega⟩ : Fin 32) = t0 :=
    Fin.ext (by have := t1.isLt; have := t2.isLt; simp only [pt]; omega)
  have h1 : (⟨(pt t0 t1 t2).val / 2 % 2, Nat.mod_lt _ (by decide)⟩ : Fin 2) = t1 :=
    Fin.ext (by have := t1.isLt; have := t2.isLt; simp only [pt]; omega)
  have h2 : (⟨(pt t0 t1 t2).val % 2, Nat.mod_lt _ (by decide)⟩ : Fin 2) = t2 :=
    Fin.ext (by have := t1.isLt; have := t2.isLt; simp only [pt]; omega)
  simp only [h0, h1, h2]

end Cert.Triplet

end
-- ==== Proof.TileValue.lean ====
/-
  One run of the kernel body, read at the ideal values: it adds to the accumulator the sum of the tile's terms.

  At the tile (t0, t1, t2) the body reads from each distance matrix the 8 × 128 block at rows 8 t0 …, columns
  128 t1 … and the block at rows 8 t0 …, columns 128 t2 …; lays the first along the (row, j) axes and the second
  along the (row, k) axes of an 8 × 128 × 128 cube; forms the triple's loss by comparisons and selections; masks it
  by j < k, i ≠ j, i ≠ k on the positions' 32-bit numbers (the tile's first position plus the coordinate); and sums
  the cube along its three axes in turn. Entry by entry this is the specification's term of the triple
  (8 t0 + a, 128 t1 + b, 128 t2 + c), so the sum is the tile's sum.
-/
import proofs.«124389_j69647189671965_1_alg».proof.Proof.Pieces
import proofs.«124389_j69647189671965_1_alg».proof.Proof.Spec
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.Triplet Idealize.ShloMosaic.ValueIdx

/-- The 32-bit number the body forms for row `r` of row tile `q` (the tile's first row plus the row's number within
    the tile, both as 32-bit words) is the row's position. -/
theorem num_row : ∀ (q : Fin 32) (r : Fin 8),
    IntOp.addi (Scalar.muli (BitVec.ofNat 32 q.val) 8#32) (BitVec.ofNat 32 r.val) = num (row q r) := by decide +kernel

/-- Likewise for column `r` of column tile `q`. -/
theorem num_col : ∀ (q : Fin 2) (r : Fin 128),
    IntOp.addi (Scalar.muli (BitVec.ofNat 32 q.val) 128#32) (BitVec.ofNat 32 r.val) = num (col q r) := by decide +kernel

/-- A 1 × 1 block has one index. -/
theorem idx11 (y : S1x1.Idx) : y = ix2 (0 : Fin 1) (0 : Fin 1) :=
  funext fun d => Fin.ext (by
    match d with
    | ⟨0, _⟩ => exact Nat.lt_one_iff.mp (y 0).isLt
    | ⟨1, _⟩ => exact Nat.lt_one_iff.mp (y 1).isLt)

/-- A lane sum from the zero word, at the ideal values, is the plain sum along the reduced axis. -/
theorem lanesum {s t : Shape} {a : Fin s.rank} (src : FVec Ideal s .f32) (h : s.Reduces [a] t) (hφ : FKind.Formats .f32)
    (hacc : (0x00000000#32 : BitVec 32) = 0x00000000#32) (j : t.Idx) :
    multiReduction (F := Ideal) .add [a] t src 0x00000000#32 h hφ hacc j = ∑ k : Fin (s.size a), src (h.lift j k) :=
  Ideal.multiReduction_add_single src 0x00000000#32 h hφ hacc j

/-- The body's three nested lane sums of an 8 × 128 × 128 block — along the last axis, then the middle one, then the
    first, each from the zero word, with reshapes between — are the plain triple sum of its entries. -/
theorem sum3 (w : FVec Ideal S8x128x128 .f32) (y : S1x1.Idx) :
    shapeCast S1x1 (shapeCast S1x1x1
      (multiReduction (F := Ideal) .add [0] S1x1
        (shapeCast S8x1x1
          (multiReduction (F := Ideal) .add [1] S8x1
            (shapeCast S8x128x1
              (multiReduction (F := Ideal) .add [2] S8x128 w 0x00000000#32 Facts₀.reduces_S8x128x128_S8x128 (.inl rfl) rfl)
              Facts₀.shapeCasts_S8x128_S8x128x1)
            0x00000000#32 Facts₀.reduces_S8x128x1_S8x1 (.inl rfl) rfl)
          Facts₀.shapeCasts_S8x1_S8x1x1)
        0x00000000#32 Facts₀.reduces_S8x1x1_S1x1 (.inl rfl) rfl)
      Facts₀.shapeCasts_S1x1_S1x1x1) Facts₀.shapeCasts_S1x1x1_S1x1 y
    = ∑ a : Fin 8, ∑ b : Fin 128, ∑ c : Fin 128, w (ix3 a b c) := by
  rw [idx11 y]
  rw [shapeCast_apply _ _ (ix2 (0 : Fin 1) (0 : Fin 1)) (ix3 (0 : Fin 1) (0 : Fin 1) (0 : Fin 1)) (by
    rw [Shape.rowMajor_val_two, Shape.rowMajor_val_three]; rfl)]
  rw [shapeCast_apply _ _ (ix3 (0 : Fin 1) (0 : Fin 1) (0 : Fin 1)) (ix2 (0 : Fin 1) (0 : Fin 1)) (by
    rw [Shape.rowMajor_val_two, Shape.rowMajor_val_three]; rfl)]
  refine (lanesum _ _ _ _ _).trans ?_
  refine Finset.sum_congr rfl fun (a : Fin 8) _ => ?_
  refine (shapeCast_apply _ _ _ (ix2 a (0 : Fin 1)) (by
    rw [Shape.rowMajor_val_two, Shape.rowMajor_val_three]; simp; rfl)).trans ?_
  refine (lanesum _ _ _ _ _).trans ?_
  refine Finset.sum_congr rfl fun (b : Fin 128) _ => ?_
  refine (shapeCast_apply _ _ _ (ix2 a b) (by
    rw [Shape.rowMajor_val_two, Shape.rowMajor_val_three]; simp; rfl)).trans ?_
  refine (lanesum _ _ _ _ _).trans ?_
  refine Finset.sum_congr rfl fun (c : Fin 128) _ => ?_
  exact congrArg w (funext fun d => Fin.ext (by match d with | ⟨0, _⟩ => rfl | ⟨1, _⟩ => rfl | ⟨2, _⟩ => rfl))

/-- The block of a 256 × 256 matrix at the tile's (row, j-column) offset: entry (a, b) is the matrix's entry at row
    `a` of the row tile and column `b` of the j-column tile. -/
theorem ld_off1 (i : grid0.Coords) (E : Vec Ideal S256x256 .f32) (a : Fin 8) (b : Fin 128) :
    View.ld (Val := Elt Ideal) E (Rect.unit (s := S256x256) (k0_off1 i) ![8, 128] (Facts₀.k0_off1_inb i)) (ix2 a b)
      = E (ix2 (row (i 0) a) (col (i 1) b)) := by
  show E _ = E _
  refine congrArg E (funext fun d => Fin.ext ?_)
  match d with
  | ⟨0, _⟩ =>
    show k0_off1 i 0 + 1 * a.val = 8 * (i 0).val + a.val
    rw [k0_off1_eq i]; show 8 * (i 0).val + 1 * a.val = _; omega
  | ⟨1, _⟩ =>
    show k0_off1 i 1 + 1 * b.val = 128 * (i 1).val + b.val
    rw [k0_off1_eq i]; show 128 * (i 1).val + 1 * b.val = _; omega

/-- An 8 × 128 block laid along the first two axes of the 8 × 128 × 128 cube: entry (a, b, c) is the block's (a, b). -/
theorem bcast_col {α : Type} (v : S8x128.Idx → α) (a : Fin 8) (b c : Fin 128) :
    broadcastTo S8x128x128 (shapeCast S8x128x1 v Facts₀.shapeCasts_S8x128_S8x128x1) Facts₀.broadcasts_S8x128x1_S8x128x128 (ix3 a b c)
      = v (ix2 a b) := by
  rw [broadcastTo_apply _ _ (ix3 a b c) (ix3 a b (0 : Fin 1)) (fun d => by
    match d with | ⟨0, _⟩ => rfl | ⟨1, _⟩ => rfl | ⟨2, _⟩ => rfl)]
  exact shapeCast_apply v _ (ix3 a b (0 : Fin 1)) (ix2 a b) (by
    rw [Shape.rowMajor_val_two, Shape.rowMajor_val_three]; simp)

/-- An 8 × 128 block laid along the first and last axes of the cube: entry (a, b, c) is the block's (a, c). -/
theorem bcast_row {α : Type} (v : S8x128.Idx → α) (a : Fin 8) (b c : Fin 128) :
    broadcastTo S8x128x128 (shapeCast S8x1x128 v Facts₀.shapeCasts_S8x128_S8x1x128) Facts₀.broadcasts_S8x1x128_S8x128x128 (ix3 a b c)
      = v (ix2 a c) := by
  rw [broadcastTo_apply _ _ (ix3 a b c) (ix3 a (0 : Fin 1) c) (fun d => by
    match d with | ⟨0, _⟩ => rfl | ⟨1, _⟩ => rfl | ⟨2, _⟩ => rfl)]
  exact shapeCast_apply v _ (ix3 a (0 : Fin 1) c) (ix2 a c) (by
    rw [Shape.rowMajor_val_two, Shape.rowMajor_val_three]; simp)

/-- The block at the tile's (row, k-column) offset, likewise. -/
theorem ld_off2 (i : grid0.Coords) (E : Vec Ideal S256x256 .f32) (a : Fin 8) (c : Fin 128) :
    View.ld (Val := Elt Ideal) E (Rect.unit (s := S256x256) (k0_off2 i) ![8, 128] (Facts₀.k0_off2_inb i)) (ix2 a c)
      = E (ix2 (row (i 0) a) (col (i 2) c)) := by
  show E _ = E _
  refine congrArg E (funext fun d => Fin.ext ?_)
  match d with
  | ⟨0, _⟩ =>
    show k0_off2 i 0 + 1 * a.val = 8 * (i 0).val + a.val
    rw [k0_off2_eq i]; show 8 * (i 0).val + 1 * a.val = _; omega
  | ⟨1, _⟩ =>
    show k0_off2 i 1 + 1 * c.val = 128 * (i 2).val + c.val
    rw [k0_off2_eq i]; show 128 * (i 2).val + 1 * c.val = _; omega

/-- The integer and sign operations at an index. -/
theorem cmpi_apply {s : Shape} {w : Nat} (p : CmpIPredicate) (x y : IVec s w) (j : s.Idx) : cmpi p x y j = IntOp.cmpi p (x j) (y j) := rfl
theorem addi_apply {s : Shape} {w : Nat} (x y : IVec s w) (j : s.Idx) : addi x y j = IntOp.addi (x j) (y j) := rfl
theorem andi_apply {s : Shape} {w : Nat} (x y : IVec s w) (j : s.Idx) : andi x y j = IntOp.andi (x j) (y j) := rfl
theorem absf_apply {s : Shape} (x : FVec Ideal s .f32) (j : s.Idx) : absf x j = max (x j) (-(x j)) := rfl

/-- The accumulator plus the three nested lane sums, at the ideal values. -/
theorem acc_add (acc : Vec Ideal S1x1 .f32) (w : FVec Ideal S8x128x128 .f32) (y : S1x1.Idx) :
    addf (F := Ideal) (shapeCast S1x1 acc Facts₀.shapeCasts_S1x1_S1x1)
      (shapeCast S1x1 (shapeCast S1x1x1
        (multiReduction (F := Ideal) .add [0] S1x1
          (shapeCast S8x1x1
            (multiReduction (F := Ideal) .add [1] S8x1
              (shapeCast S8x128x1
                (multiReduction (F := Ideal) .add [2] S8x128 w 0x00000000#32 Facts₀.reduces_S8x128x128_S8x128 (.inl rfl) rfl)
                Facts₀.shapeCasts_S8x128_S8x128x1)
              0x00000000#32 Facts₀.reduces_S8x128x1_S8x1 (.inl rfl) rfl)
            Facts₀.shapeCasts_S8x1_S8x1x1)
          0x00000000#32 Facts₀.reduces_S8x1x1_S1x1 (.inl rfl) rfl)
        Facts₀.shapeCasts_S1x1_S1x1x1) Facts₀.shapeCasts_S1x1x1_S1x1) y
    = acc y + ∑ a : Fin 8, ∑ b : Fin 128, ∑ c : Fin 128, w (ix3 a b c) := by
  show shapeCast S1x1 acc _ y + _ = _
  rw [shapeCast_self, sum3]

/-- The cube's coordinate numbers along each axis, as 32-bit words. -/
theorem iota0 (a : Fin 8) (b c : Fin 128) :
    iota .tc S8x128x128 32 [0] Facts₀.iota_S8x128x128_d0_w32 (ix3 a b c) = BitVec.ofNat 32 a.val :=
  iota_single_apply .tc S8x128x128 32 0 _ (ix3 a b c)
theorem iota1 (a : Fin 8) (b c : Fin 128) :
    iota .tc S8x128x128 32 [1] Facts₀.iota_S8x128x128_d1_w32 (ix3 a b c) = BitVec.ofNat 32 b.val :=
  iota_single_apply .tc S8x128x128 32 1 _ (ix3 a b c)
theorem iota2 (a : Fin 8) (b c : Fin 128) :
    iota .tc S8x128x128 32 [2] Facts₀.iota_S8x128x128_d2_w32 (ix3 a b c) = BitVec.ofNat 32 c.val :=
  iota_single_apply .tc S8x128x128 32 2 _ (ix3 a b c)

/-- The position numbers the mask compares, at a tile. -/
theorem word0 (i : grid0.Coords) (a : Fin 8) :
    IntOp.addi (Scalar.muli (BitVec.ofNat 32 (i 0).val) 8#32) (BitVec.ofNat 32 a.val) = num (row (i 0) a) := num_row (i 0) a
theorem word1 (i : grid0.Coords) (b : Fin 128) :
    IntOp.addi (Scalar.muli (BitVec.ofNat 32 (i 1).val) 128#32) (BitVec.ofNat 32 b.val) = num (col (i 1) b) := num_col (i 1) b
theorem word2 (i : grid0.Coords) (c : Fin 128) :
    IntOp.addi (Scalar.muli (BitVec.ofNat 32 (i 2).val) 128#32) (BitVec.ofNat 32 c.val) = num (col (i 2) c) := num_col (i 2) c

/-- ONE RUN OF THE BODY adds the tile's sum: the block reads are the two distance matrices at the tile's rows and
    columns, the selections are the triple's loss, the mask compares the positions' numbers, and the three lane sums
    add the 8 × 128 × 128 terms. -/
theorem step_apply (i : grid0.Coords) (E G : Vec Ideal S256x256 .f32) (acc : Vec Ideal S1x1 .f32) (y : S1x1.Idx) :
    Body.step (F := Ideal) i E G acc y = acc y + tileSum E G (i 0) (i 1) (i 2) := by
  unfold Body.step k0_pay1 k0_pay8 k0_pay9 k0_pay12 k0_pay13 k0_pay14 k0_pay15 k0_pay10 k0_pay11
  dsimp only
  refine (acc_add _ _ _).trans ?_
  refine congrArg (acc y + ·) ?_
  unfold tileSum
  refine Finset.sum_congr rfl fun (a : Fin 8) _ => Finset.sum_congr rfl fun (b : Fin 128) _ =>
    Finset.sum_congr rfl fun (c : Fin 128) _ => ?_
  simp only [select_apply, cmpf_apply, cmpi_apply, addi_apply, andi_apply, absf_apply, broadcast_apply,
    subf_apply, addf_apply, maximumf_apply, iota0, iota1, iota2, word0, word1, word2, bcast_col, bcast_row,
    ld_off1, ld_off2]
  rw [iota0 a b c, iota1 a b c, iota2 a b c, word0 i a, word1 i b, word2 i c, ld_off1 i E a b, ld_off2 i E a c,
    ld_off1 i G a b, ld_off2 i G a c]
  rfl

/-- The zero block the first point stores into the accumulator. -/
theorem zero_block (y : S1x1.Idx) : k0_pay7 (F := Ideal) y = zero := rfl

/-- The last point's division: the accumulator over the count. -/
theorem quotient_apply (v : Vec Ideal S1x1 .f32) (y : S1x1.Idx) : k0_pay2 (F := Ideal) v y = Ideal.div (v y) count := by
  unfold k0_pay2
  show Ideal.div (shapeCast S1x1 v _ y) _ = _
  rw [shapeCast_self]
  rfl

end Cert.KernelIdeal.Val

end
-- ==== Proof.DistValue.lean ====
/-
  The kernel's two distance matrices are the specification's.

  The body computes the distance matrix of a token array as one chain of vector operations: the squares summed
  along the lanes (the squared norms, one per row), that column laid out as a 256 × 1 block, its transpose as a
  1 × 256 block, both spread over the 256 × 256 square and added; the inner products of the rows by a contraction
  with the transposed array into a zero block; the squared distance |x_p|² + |x_q|² − 2 ⟨x_p, x_q⟩ cut off below at
  zero; and its root where it is positive. Read at the entry (p, q), each operation is the specification's term.
-/
import proofs.«124389_j69647189671965_1_alg».proof.Proof.Pieces
import proofs.«124389_j69647189671965_1_alg».proof.Proof.Spec
import Idealize.ShloMosaic.PureOps.Ideal.Laws
import Idealize.ShloMosaic.Lib.ValueLayout
import Idealize.ShloMosaic.Lib.Pipeline.Value
import Idealize.ShloMosaic.Lib.ValueIdx

set_option maxRecDepth 16384

noncomputable section

namespace Cert.KernelIdeal.Val

open Cert.KernelIdeal Cert.KernelIdeal.Gen Cert.Triplet Idealize.ShloMosaic Idealize.ShloMosaic.ValueIdx

/-! ## The operations that move entries, read at an entry -/

/-- The lane sum of the squares of row `p` is its squared norm. -/
theorem rowsum_at (x : FVec Ideal S256x768 .f32) (hφ : FKind.Formats .f32)
    (hacc : (0x00000000#32 : BitVec 32) = 0x00000000#32) (p : Fin 256) :
    multiReduction (F := Ideal) .add [1] S256 (mulf x x) 0x00000000#32 Facts₀.reduces_S256x768_S256 hφ hacc (ix1 p)
      = sqn x p := by
  refine (Ideal.multiReduction_add_single (mulf x x) 0x00000000#32 Facts₀.reduces_S256x768_S256 hφ hacc (ix1 p)).trans ?_
  unfold sqn
  refine Finset.sum_congr rfl fun k _ => ?_
  have e : Facts₀.reduces_S256x768_S256.lift (ix1 p) k = ix2 p k :=
    funext fun a => Fin.ext (by match a with | ⟨0, _⟩ => rfl | ⟨1, _⟩ => rfl)
  rw [e]
  rfl

/-- A vector of 256 entries laid out as a 256 × 1 block: entry (p, 0) is entry p. -/
theorem col_at {α : Type} (v : S256.Idx → α) (p : Fin 256) (z : Fin 1) :
    shapeCast S256x1 v Facts₀.shapeCasts_S256_S256x1 (ix2 p z) = v (ix1 p) := by
  refine shapeCast_apply v _ (ix2 p z) (ix1 p) ?_
  rw [Shape.rowMajor_val_one, Shape.rowMajor_val_two]
  show p.val = p.val * 1 + z.val
  have := z.isLt
  omega

/-- The 256 × 1 block transposed: entry (0, q) is entry (q, 0). -/
theorem row_at {α : Type} (w : S256x1.Idx → α) (z : Fin 1) (q : Fin 256) :
    transpose S1x256 [1, 0] w Facts₀.transposes_S256x1_p1_0_S1x256 (ix2 z q) = w (ix2 q z) :=
  transpose_ix2_apply w _ z q

/-- The column spread over the square: entry (p, q) is the column's entry (p, 0). -/
theorem spread_col_at {α : Type} (w : S256x1.Idx → α) (p q : Fin 256) :
    broadcastTo S256x256 w Facts₀.broadcasts_S256x1_S256x256 (ix2 p q) = w (ix2 p (0 : Fin 1)) := by
  refine broadcastTo_apply w _ (ix2 p q) (ix2 p (0 : Fin 1)) fun a => ?_
  match a with
  | ⟨0, _⟩ => show p.val = if (256 : Nat) = 1 then 0 else p.val; rw [if_neg (by decide)]
  | ⟨1, _⟩ => show 0 = if (1 : Nat) = 1 then 0 else q.val; rw [if_pos rfl]

/-- The row spread over the square: entry (p, q) is the row's entry (0, q). -/
theorem spread_row_at {α : Type} (w : S1x256.Idx → α) (p q : Fin 256) :
    broadcastTo S256x256 w Facts₀.broadcasts_S1x256_S256x256 (ix2 p q) = w (ix2 (0 : Fin 1) q) :=
  broadcastTo_1b_ab_apply w _ p q

/-! ## The contraction -/

theorem lhs_gram_0 (i : S256x256.Idx) (q : dot_S256x768_S768x256_S256x256_1_0_0_1_n_n.contr.Idx) :
    (dot_S256x768_S768x256_S256x256_1_0_0_1_n_n.lhsIdx i q 0).val = (i 0).val := by
  unfold DotDims.lhsIdx
  rw [dif_neg (show ¬(0 : Fin S256x768.rank) ∈ dot_S256x768_S768x256_S256x256_1_0_0_1_n_n.lhsBatch by decide),
    dif_pos (show (0 : Fin S256x768.rank) ∈ dot_S256x768_S768x256_S256x256_1_0_0_1_n_n.lhsNonContracting by decide)]
  rfl

theorem lhs_gram_1 (i : S256x256.Idx) (q : dot_S256x768_S768x256_S256x256_1_0_0_1_n_n.contr.Idx) :
    (dot_S256x768_S768x256_S256x256_1_0_0_1_n_n.lhsIdx i q 1).val = (q ⟨0, by decide⟩).val :=
  dot_S256x768_S768x256_S256x256_1_0_0_1_n_n.lhsIdx_val_of_single rfl i q

theorem rhs_gram_0 (i : S256x256.Idx) (q : dot_S256x768_S768x256_S256x256_1_0_0_1_n_n.contr.Idx) :
    (dot_S256x768_S768x256_S256x256_1_0_0_1_n_n.rhsIdx i q 0).val = (q ⟨0, by decide⟩).val :=
  dot_S256x768_S768x256_S256x256_1_0_0_1_n_n.rhsIdx_val_of_single rfl i q

theorem rhs_gram_1 (i : S256x256.Idx) (q : dot_S256x768_S768x256_S256x256_1_0_0_1_n_n.contr.Idx) :
    (dot_S256x768_S768x256_S256x256_1_0_0_1_n_n.rhsIdx i q 1).val = (i 1).val := by
  unfold DotDims.rhsIdx
  rw [dif_neg (show ¬(1 : Fin S768x256.rank) ∈ dot_S256x768_S768x256_S256x256_1_0_0_1_n_n.rhsBatch by decide),
    dif_pos (show (1 : Fin S768x256.rank) ∈ dot_S256x768_S768x256_S256x256_1_0_0_1_n_n.rhsNonContracting by decide)]
  rfl

/-- The array contracted with its transpose into the zero block: entry (p, q) is the inner product of rows p and q. -/
theorem gram_at (x : FVec Ideal S256x768 .f32) (p q : Fin 256) :
    matmul (F := Ideal) dot_S256x768_S768x256_S256x256_1_0_0_1_n_n (some .fp32) x
        (transpose S768x256 [1, 0] x Facts₀.transposes_S256x768_p1_0_S768x256)
        (constant (F := Ideal) S256x256 .f32 0x00000000#32) (ix2 p q)
      = gram x p q := by
  refine (Ideal.matmul_constant_zero_apply dot_S256x768_S768x256_S256x256_1_0_0_1_n_n (some .fp32) x _ (ix2 p q)).trans ?_
  rw [← Equiv.sum_comp (contrEquiv1 dot_S256x768_S768x256_S256x256_1_0_0_1_n_n 768 rfl rfl).symm]
  unfold gram
  refine Finset.sum_congr rfl fun k _ => ?_
  have hk := contrEquiv1_symm_val dot_S256x768_S768x256_S256x256_1_0_0_1_n_n 768 rfl rfl k
  have el : dot_S256x768_S768x256_S256x256_1_0_0_1_n_n.lhsIdx (ix2 p q)
      ((contrEquiv1 dot_S256x768_S768x256_S256x256_1_0_0_1_n_n 768 rfl rfl).symm k) = ix2 p k :=
    funext fun a => Fin.ext (by
      match a with
      | ⟨0, _⟩ => exact lhs_gram_0 _ _
      | ⟨1, _⟩ => exact (lhs_gram_1 _ _).trans hk)
  have er : dot_S256x768_S768x256_S256x256_1_0_0_1_n_n.rhsIdx (ix2 p q)
      ((contrEquiv1 dot_S256x768_S768x256_S256x256_1_0_0_1_n_n 768 rfl rfl).symm k) = ix2 k q :=
    funext fun a => Fin.ext (by
      match a with
      | ⟨0, _⟩ => exact (rhs_gram_0 _ _).trans hk
      | ⟨1, _⟩ => exact rhs_gram_1 _ _)
  rw [el, er, transpose_ix2_apply]

/-! ## The squared distance and its root -/

/-- Before the cut-off, entry (p, q) is |x_p|² + |x_q|² − 2 ⟨x_p, x_q⟩. -/
theorem sqd_at (x : Vec Ideal S256x768 .f32) (p q : Fin 256) :
    k0_pay4 (F := Ideal) x (ix2 p q) = sqn x p + sqn x q - two * gram x p q := by
  unfold k0_pay4
  show broadcastTo S256x256
          (shapeCast S256x1
            (multiReduction (F := Ideal) .add [1] S256 (mulf x x) 0x00000000#32 Facts₀.reduces_S256x768_S256 (.inl rfl) rfl)
            Facts₀.shapeCasts_S256_S256x1)
          Facts₀.broadcasts_S256x1_S256x256 (ix2 p q)
        + broadcastTo S256x256
          (transpose S1x256 [1, 0]
            (shapeCast S256x1
              (multiReduction (F := Ideal) .add [1] S256 (mulf x x) 0x00000000#32 Facts₀.reduces_S256x768_S256 (.inl rfl) rfl)
              Facts₀.shapeCasts_S256_S256x1)
            Facts₀.transposes_S256x1_p1_0_S1x256)
          Facts₀.broadcasts_S1x256_S256x256 (ix2 p q)
        - two * matmul (F := Ideal) dot_S256x768_S768x256_S256x256_1_0_0_1_n_n (some .fp32) x
            (transpose S768x256 [1, 0] x Facts₀.transposes_S256x768_p1_0_S768x256)
            (constant (F := Ideal) S256x256 .f32 0x00000000#32) (ix2 p q)
      = sqn x p + sqn x q - two * gram x p q
  rw [spread_col_at, spread_row_at, row_at, col_at, col_at, rowsum_at, rowsum_at, gram_at]

/-- Cut off below at zero, then the root where the result is positive, else zero (the last cast keeps the shape). -/
theorem root_at (v : FVec Ideal S256x256 .f32) (j : S256x256.Idx) :
    k0_pay6 (F := Ideal) v (k0_pay5 (F := Ideal)) j
      = Scalar.select (Ideal.cmp .ogt (max (v j) zero) zero)
          (Ideal.sqrt (Scalar.select (Ideal.cmp .ogt (max (v j) zero) zero) (max (v j) zero) one)) zero := by
  unfold k0_pay6 k0_pay5
  dsimp only
  rw [shapeCast_self]
  rfl

/-! ## The two matrices -/

/-- The second matrix: the squared distance of the second chain, then the root. -/
theorem dmat1_eq (x : Vec Ideal S256x768 .f32) : Body.dmat1 (F := Ideal) x = distArr x := by
  funext j
  obtain ⟨p, q, rfl⟩ : ∃ (p q : Fin 256), j = ix2 p q := ⟨j 0, j 1, eq_ix2 j⟩
  show k0_pay6 (F := Ideal) (k0_pay4 (F := Ideal) x) (k0_pay5 (F := Ideal)) (ix2 p q) = dist x p q
  rw [root_at, sqd_at]
  rfl

/-- The first matrix is computed by the same operations in one piece. -/
theorem dmat0_eq (x : Vec Ideal S256x768 .f32) : Body.dmat0 (F := Ideal) x = distArr x :=
  (show Body.dmat0 (F := Ideal) x = Body.dmat1 (F := Ideal) x from rfl).trans (dmat1_eq x)

end Cert.KernelIdeal.Val

end
-- ==== Proof.KernelValue.lean ====
/-
  What the kernel's run leaves in its result, at the ideal values: the loss of the specification.

  After the grid point numbered n the two scratch buffers hold the distance matrices of the two token arrays and the
  accumulator holds zero plus the sums of the tiles 0 … n (at the last point, that divided by the count): by
  induction on the point, from what each case of the body leaves. The one write-back, after the last point, puts the
  accumulator into the 1 × 1 result array; the reshape after the call reads it as a scalar. The tiles' sums over all
  128 points are the sum over all triples, so the scalar is the loss.
-/
import proofs.«124389_j69647189671965_1_alg».proof.Proof.TileValue
import proofs.«124389_j69647189671965_1_alg».proof.Proof.DistValue
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.Triplet Idealize.ShloMosaic.ValueIdx

variable (m : (ℓ : Loc nD τ sig) → Buf (Elt Ideal) ℓ) (ρ : Dev nD → PrngReg)

/-- The two token arrays as the call finds them. -/
abbrev img (c : Dev nD) : Vec Ideal S256x768 .f32 := m ((c : Thread nD τ).loc main_arg0)
abbrev ehr (c : Dev nD) : Vec Ideal S256x768 .f32 := m ((c : Thread nD τ).loc main_arg1)

/-- Their distance matrices. -/
abbrev dE (c : Dev nD) : Vec Ideal S256x256 .f32 := distArr (ehr m c)
abbrev dG (c : Dev nD) : Vec Ideal S256x256 .f32 := distArr (img m c)

/-! ## The windows' blocks are the whole token arrays -/

theorem index0_zero : ∀ (t : Fin cfg0.N) (a : Fin 2), win0_0.index t a = 0 :=
  (by decide +kernel : ∀ (t : Fin grid0.N) (a : Fin 2), win0_0.index t a = 0)
theorem index1_zero : ∀ (t : Fin cfg0.N) (a : Fin 2), win0_1.index t a = 0 :=
  (by decide +kernel : ∀ (t : Fin grid0.N) (a : Fin 2), win0_1.index t a = 0)
theorem index2_zero : ∀ (t : Fin cfg0.N) (a : Fin 2), win0_2.index t a = 0 :=
  (by decide +kernel : ∀ (t : Fin grid0.N) (a : Fin 2), win0_2.index t a = 0)

/-- The first window's block, at every point, is the whole second argument. -/
theorem iblk0_eq (c : Dev nD) (t : Fin cfg0.N) : (iblk m c 0 t : Vec Ideal S256x768 .f32) = ehr m c := by
  funext j
  unfold iblk
  rw [View.read_apply]
  show V m c main_arg1 _ = m (c.tc.loc main_arg1) j
  unfold V
  refine congrArg (m (c.tc.loc main_arg1)) (funext fun a => Fin.ext ?_)
  match a with
  | ⟨0, _⟩ => show win0_0.index t 0 * 256 + 1 * (j 0).val = (j 0).val; rw [index0_zero t 0]; omega
  | ⟨1, _⟩ => show win0_0.index t 1 * 768 + 1 * (j 1).val = (j 1).val; rw [index0_zero t 1]; omega

/-- The second window's block, at every point, is the whole first argument. -/
theorem iblk1_eq (c : Dev nD) (t : Fin cfg0.N) : (iblk m c 1 t : Vec Ideal S256x768 .f32) = img m c := by
  funext j
  unfold iblk
  rw [View.read_apply]
  show V m c main_arg0 _ = m (c.tc.loc main_arg0) j
  unfold V
  refine congrArg (m (c.tc.loc main_arg0)) (funext fun a => Fin.ext ?_)
  match a with
  | ⟨0, _⟩ => show win0_1.index t 0 * 256 + 1 * (j 0).val = (j 0).val; rw [index1_zero t 0]; omega
  | ⟨1, _⟩ => show win0_1.index t 1 * 768 + 1 * (j 1).val = (j 1).val; rw [index1_zero t 1]; omega

/-! ## The running sum -/

/-- The tile of the grid point numbered `s`, and its sum. -/
def tileAt (c : Dev nD) (s : ℕ) : R :=
  tileSum (dE m c) (dG m c) ⟨s / 4 % 32, Nat.mod_lt _ (by decide)⟩ ⟨s / 2 % 2, Nat.mod_lt _ (by decide)⟩
    ⟨s % 2, Nat.mod_lt _ (by decide)⟩

/-- The accumulator after point `n`, before any division. -/
def accAt (c : Dev nD) (n : ℕ) : R := zero + ∑ s ∈ Finset.range (n + 1), tileAt m c s

theorem accAt_succ (c : Dev nD) (n : ℕ) : accAt m c (n + 1) = accAt m c n + tileAt m c (n + 1) := by
  unfold accAt
  rw [Finset.sum_range_succ, add_assoc]

/-- What the accumulator holds after point `n`: the last point divides. -/
def outAt (c : Dev nD) (n : ℕ) : R := if n = 127 then Ideal.div (accAt m c n) count else accAt m c n

/-- A point's coordinates from its number. -/
theorem coords_eq : ∀ t : Fin cfg0.N, (grid0.coords t 0).val = t.val / 4 % 32 ∧ (grid0.coords t 1).val = t.val / 2 % 2
    ∧ (grid0.coords t 2).val = t.val % 2 :=
  (by decide +kernel : ∀ t : Fin grid0.N, (grid0.coords t 0).val = t.val / 4 % 32 ∧ (grid0.coords t 1).val = t.val / 2 % 2
    ∧ (grid0.coords t 2).val = t.val % 2)

/-- One run of the body at point `t`, over the two distance matrices, adds the point's tile. -/
theorem step_at (c : Dev nD) (t : Fin cfg0.N) (acc : Vec Ideal S1x1 .f32) (y : S1x1.Idx) :
    Body.step (F := Ideal) (grid0.coords t) (dE m c) (dG m c) acc y = acc y + tileAt m c t.val := by
  have h0 : (grid0.coords t 0 : Fin 32) = ⟨t.val / 4 % 32, Nat.mod_lt _ (by decide)⟩ := Fin.ext (coords_eq t).1
  have h1 : (grid0.coords t 1 : Fin 2) = ⟨t.val / 2 % 2, Nat.mod_lt _ (by decide)⟩ := Fin.ext (coords_eq t).2.1
  have h2 : (grid0.coords t 2 : Fin 2) = ⟨t.val % 2, Nat.mod_lt _ (by decide)⟩ := Fin.ext (coords_eq t).2.2
  rw [step_apply]
  unfold tileAt
  rw [h0, h1, h2]
  rfl

/-! ## What the buffers hold after each point -/

/-- After point `n`: the accumulator at the running sum (divided at the last point), the scratch buffers at the two
    distance matrices. -/
theorem outsAt_eq (c : Dev nD) : ∀ (n : ℕ) (h : n < cfg0.N),
    outsAt0 m c n h = ((fun _ => outAt m c n : Vec Ideal S1x1 .f32), dE m c, dG m c)
  | 0, h => by
    refine (outsAt0_A m c ⟨0, h⟩ rfl (by dsimp only; omega)).trans ?_
    rw [Body.out_A_2, Body.sout_A_0, Body.sout_A_1, iblk0_eq, iblk1_eq, dmat0_eq, dmat1_eq]
    refine Prod.ext (funext fun y => ?_) rfl
    show Body.step (F := Ideal) (grid0.coords ⟨0, h⟩) (dE m c) (dG m c) (k0_pay7 (F := Ideal)) y = outAt m c 0
    rw [step_at, zero_block]
    simp [outAt, accAt]
  | n + 1, h => by
    have ih := outsAt_eq c n (Nat.lt_of_succ_lt h)
    have hN : n + 1 < 128 := lt_of_lt_of_eq h (show cfg0.N = 128 from N_0)
    have hn : ¬n = 127 := by omega
    have hp : outsAt0 m c ((⟨n + 1, h⟩ : Fin cfg0.N).val - 1) (Nat.lt_of_le_of_lt (Nat.sub_le _ _) (⟨n + 1, h⟩ : Fin cfg0.N).isLt)
        = ((fun _ => outAt m c n : Vec Ideal S1x1 .f32), dE m c, dG m c) := ih
    have h0 : ¬(⟨n + 1, h⟩ : Fin cfg0.N).val % 128 = 0 := by dsimp only; omega
    by_cases hl : n + 1 = 127
    · have h1 : (⟨n + 1, h⟩ : Fin cfg0.N).val % 128 = 127 := by dsimp only; omega
      refine (outsAt0_C m c ⟨n + 1, h⟩ h0 h1).trans ?_
      rw [hp]
      dsimp only
      rw [Body.out_C_2]
      refine Prod.ext (funext fun y => ?_) rfl
      dsimp only
      rw [quotient_apply, step_at]
      show Ideal.div (outAt m c n + tileAt m c (n + 1)) count = outAt m c (n + 1)
      unfold outAt
      rw [if_neg hn, if_pos hl, accAt_succ]
    · have h1 : ¬(⟨n + 1, h⟩ : Fin cfg0.N).val % 128 = 127 := by dsimp only; omega
      refine (outsAt0_B m c ⟨n + 1, h⟩ h0 h1).trans ?_
      rw [hp]
      dsimp only
      rw [Body.out_B_2]
      refine Prod.ext (funext fun y => ?_) rfl
      dsimp only
      rw [step_at]
      show outAt m c n + tileAt m c (n + 1) = outAt m c (n + 1)
      unfold outAt
      rw [if_neg hn, if_neg hl, accAt_succ]

/-! ## The result array and the scalar read from it -/

/-- The tiles' sums over all 128 points are the sum over all triples. -/
theorem sum_tileAt (c : Dev nD) : ∑ s ∈ Finset.range 128, tileAt m c s = total (dE m c) (dG m c) := by
  rw [Finset.sum_range]
  refine (Finset.sum_congr rfl fun s _ => ?_).trans (sum_tiles (dE m c) (dG m c))
  unfold tileAt
  have e0 : (⟨s.val / 4 % 32, Nat.mod_lt _ (by decide)⟩ : Fin 32) = ⟨s.val / 4, by have := s.isLt; omega⟩ :=
    Fin.ext (Nat.mod_eq_of_lt (by have := s.isLt; omega))
  rw [e0]

/-- So after the last point the accumulator holds the loss. -/
theorem outAt_last (c : Dev nD) : outAt m c 127 = loss (img m c) (ehr m c) := by
  show (if (127 : ℕ) = 127 then Ideal.div (zero + ∑ s ∈ Finset.range 128, tileAt m c s) count else _) = _
  rw [if_pos rfl, sum_tileAt]
  rfl

/-- The loss as the contents of the 1 × 1 result array. -/
abbrev result (c : Dev nD) : Buf (Elt Ideal) ((c : Thread nD τ).loc main_v0) := fun _ => loss (img m c) (ehr m c)

/-- The last grid point. -/
def tLast : Fin cfg0.N := ⟨127, by rw [show cfg0.N = 128 from N_0]; decide⟩

/-- The one write-back, after the last point, writes the loss: the block is the whole 1 × 1 array. -/
theorem flushed_eq (c : Dev nD) (t : Fin cfg0.N) (hf : (cfg0.win 2).flush t = true) :
    (dats m 0 c).flushed 2 t = ((cfg0.win 2).blk t).view.read (Elt Ideal) (result m c) := by
  have hN : cfg0.N = 128 := N_0
  have hl : t.val = 127 := by have := (flush0_2 t).mp hf; have := t.isLt; omega
  show (cfg0.win 2).cut (grid0.coords t) ((dats m 0 c).after 2 t) = _
  rw [after0_2, outsAt_eq]
  dsimp only
  have e : (fun _ => outAt m c t.val : Vec Ideal S1x1 .f32) = result m c := by
    funext y; show outAt m c t.val = loss (img m c) (ehr m c); rw [hl, outAt_last]
  rw [e]
  have hz' : (fun a => win0_2.index t a * main_v0.ty.shape.size a) = fun _ => 0 :=
    funext fun a => by rw [index2_zero t a, Nat.zero_mul]
  exact (Memref.read_access_unit_zero (Elt Ideal) main_v0 hz' (fun a => by rw [congrFun hz' a]; simp) (result m c)).symm

/-- So the result array ends holding the loss. -/
theorem final (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      match a with
      | ⟨0, _⟩ =>
        show win0_2.index tLast 0 * win0_2.size 0 ≤ (i 0 : Nat) ∧ (i 0 : Nat) < win0_2.index tLast 0 * win0_2.size 0 + win0_2.xsize (grid0.coords tLast) 0
        have h0 : (i 0 : Nat) < 1 := (i 0).isLt
        rw [index2_zero tLast 0, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        have h1 : (i 1 : Nat) < 1 := (i 1).isLt
        rw [index2_zero tLast 1, show win0_2.xsize (grid0.coords tLast) 1 = 1 from by decide +kernel]; omega⟩

/-- The reshape after the call reads the 1 × 1 array as a scalar: the loss. -/
theorem tail_eq (c : Dev nD) :
    Pipeline.afterTail₀ cfgs (dats m) 0 (V0 m) [hostOps1] c main_v1 = fun _ => loss (img m c) (ehr m c) := by
  unfold Pipeline.afterTail₀
  show StableHlo.after hostOps1 _ (Proc.devRef .tc main_v1) = _
  after_results
  funext i
  have e : Pipeline.withArrays (cfgs 0).spec c (V0 m c) (fun w => (dats m 0 c).arrAt w (cfgs 0).N) (Proc.tc.devRef main_v0)
      = result m c :=
    (Pipeline.withArrays_arr spec0 launch0.win.arr_inj c _ _ 2).trans (final m c)
  rw [e]
  rfl

/-- THE KERNEL'S RUN, read: every weakly fair execution terminates with the scalar result at the loss of the two token
    arrays and the arrays unchanged. -/
theorem run : θ_run defs (onTc (τ := τ) (main (F := Ideal))) ⟨m, fun _ => 0, ρ⟩ fun r => ∀ c : Dev nD,
      r.2.mem ((c : Thread nD τ).loc main_v1) = (fun _ => loss (img m c) (ehr m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v1 (by decide)).trans (tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c)))⟩)
    (run_main m ρ)

end Cert.KernelIdeal.Val

end
-- ==== Proof.RefValue.lean ====
/-
  The reference program is the triplet ranking loss of the specification.

  The reference computes, for each of its two arguments, the matrix of distances between the rows of a token array:
  the squared norms by a row sum started from zero, the inner products by a contraction over the 768 columns,
  the squared distance |x_i|² + |x_j|² − 2 ⟨x_i, x_j⟩ cut off below at zero, and its root where it is positive.
  From the two matrices it forms the loss of every triple (i, j, k) by broadcasts and selections, masks it by
  j < k, i ≠ j, i ≠ k on the positions' 32-bit numbers, sums all 256³ entries from zero and divides by the count.
  Read index by index, every stage is the specification's term of the same name.
-/
import proofs.«124389_j69647189671965_1_alg».proof.Proof.Spec
import proofs.«124389_j69647189671965_1_alg».proof.Proof.Gen.ReferenceIdeal.Read

noncomputable section

namespace Cert.Triplet.Ref

open Idealize.ShloMosaic Idealize.ShloMosaic.ValueIdx Cert.ReferenceIdeal Cert.ReferenceIdeal.Read

/-! ## The distance matrix of the second argument (stages %0 … %20) -/

/-- The row sum of squares, started from zero, is the squared norm. -/
theorem sq1 (x : Tok.Idx → R) (i : Fin 256) : val_main_v1 (F := Ideal) x (ix1 i) = sqn x i := by
  rw [val_main_v1_apply, val_main_cst_apply, Ideal.ofBits_def, Ideal.ofBits_zero_f32, zero_add]
  unfold sqn
  refine Finset.sum_congr rfl fun k _ => ?_
  have e : idx_main_v1 (ix1 i) k = ix2 i k :=
    funext fun a => Fin.ext (by match a with | ⟨0, _⟩ => rfl | ⟨1, _⟩ => rfl)
  rw [val_main_v0_apply, Ideal.mulf_def, e]

/-- The contraction over the columns is the inner product of two rows. -/
theorem gram1 (x : Tok.Idx → R) (i j : Fin 256) : val_main_v8 (F := Ideal) x (ix2 i j) = gram x i j := by
  rw [val_main_v8_apply]
  unfold gram
  refine Finset.sum_congr rfl fun k _ => ?_
  have el : lidx_main_v8 (ix2 i j) k = ix2 i k :=
    funext fun a => Fin.ext (by match a with | ⟨0, _⟩ => rfl | ⟨1, _⟩ => rfl)
  have er : idx_main_v7 (ridx_main_v8 (ix2 i j) k) = ix2 j k :=
    funext fun a => Fin.ext (by match a with | ⟨0, _⟩ => rfl | ⟨1, _⟩ => rfl)
  rw [val_main_v7_apply, el, er]

/-- The squared distance, cut off below at zero. -/
theorem d2_1 (x : Tok.Idx → R) (i j : Fin 256) : val_main_v13 (F := Ideal) x (ix2 i j) = d2 x i j := by
  have e4 : idx_main_v2 (idx_main_v4 (ix2 i j)) = ix1 i :=
    funext fun a => Fin.ext (by match a with | ⟨0, _⟩ => rfl)
  have e5 : idx_main_v3 (idx_main_v5 (ix2 i j)) = ix1 j :=
    funext fun a => Fin.ext (by match a with | ⟨0, _⟩ => rfl)
  rw [val_main_v13_apply, val_main_v11_apply, val_main_v6_apply, val_main_v4_apply, val_main_v2_apply,
    val_main_v5_apply, val_main_v3_apply, val_main_v10_apply, val_main_v9_apply, val_main_cst_0_apply,
    val_main_v12_apply, val_main_cst_1_apply, e4, e5, sq1, sq1, gram1]
  rfl

/-- The distance: the root of the squared distance where that is positive, else zero. -/
theorem dist1 (x : Tok.Idx → R) (i j : Fin 256) : val_main_v20 (F := Ideal) x (ix2 i j) = dist x i j := by
  rw [val_main_v20_apply, val_main_v18_apply, val_main_v19_apply, val_main_v16_apply, val_main_v15_apply,
    val_main_v17_apply, val_main_cst_4_apply, val_main_v14_apply, val_main_cst_2_apply,
    val_main_call0_v1_apply, val_main_call0_v0_apply, val_main_cst_3_apply,
    val_main_call1_v1_apply, val_main_call1_v0_apply, val_main_cst_5_apply, d2_1]
  rfl

/-- The same stages on the first argument: stage %41 is stage %20, operation by operation. -/
theorem v41_eq_v20 (x : Tok.Idx → R) : val_main_v41 (F := Ideal) x = val_main_v20 (F := Ideal) x := rfl

theorem dist0 (x : Tok.Idx → R) (i j : Fin 256) : val_main_v41 (F := Ideal) x (ix2 i j) = dist x i j := by
  rw [v41_eq_v20, dist1]

/-! ## The loss of one triple (stages %42 … %69)

  The two distance matrices are broadcast along the third and along the second axis of the cube, so at the triple
  (i, j, k) one broadcast reads its matrix at (i, j) and the other at (i, k). -/

/-- An index equation between two rank-2 index functions, coordinate by coordinate. -/
local macro "coords2" : tactic =>
  `(tactic| exact funext fun a => Fin.ext (by match a with | ⟨0, _⟩ => rfl | ⟨1, _⟩ => rfl))

theorem v46_at (x : Tok.Idx → R) (i j k : Fin 256) : val_main_v46 (F := Ideal) x (ix3 i j k) = dist x i j := by
  have e : idx_main_v42 (idx_main_v46 (ix3 i j k)) = ix2 i j := by coords2
  rw [val_main_v46_apply, val_main_v42_apply, e, dist1]

theorem v56_at (x : Tok.Idx → R) (i j k : Fin 256) : val_main_v56 (F := Ideal) x (ix3 i j k) = dist x i j := by
  have e : idx_main_v42 (idx_main_v56 (ix3 i j k)) = ix2 i j := by coords2
  rw [val_main_v56_apply, val_main_v42_apply, e, dist1]

theorem v47_at (x : Tok.Idx → R) (i j k : Fin 256) : val_main_v47 (F := Ideal) x (ix3 i j k) = dist x i k := by
  have e : idx_main_v43 (idx_main_v47 (ix3 i j k)) = ix2 i k := by coords2
  rw [val_main_v47_apply, val_main_v43_apply, e, dist1]

theorem v55_at (x : Tok.Idx → R) (i j k : Fin 256) : val_main_v55 (F := Ideal) x (ix3 i j k) = dist x i k := by
  have e : idx_main_v43 (idx_main_v55 (ix3 i j k)) = ix2 i k := by coords2
  rw [val_main_v55_apply, val_main_v43_apply, e, dist1]

theorem v49_at (x : Tok.Idx → R) (i j k : Fin 256) : val_main_v49 (F := Ideal) x (ix3 i j k) = dist x i j := by
  have e : idx_main_v44 (idx_main_v49 (ix3 i j k)) = ix2 i j := by coords2
  rw [val_main_v49_apply, val_main_v44_apply, e, dist0]

theorem v59_at (x : Tok.Idx → R) (i j k : Fin 256) : val_main_v59 (F := Ideal) x (ix3 i j k) = dist x i j := by
  have e : idx_main_v44 (idx_main_v59 (ix3 i j k)) = ix2 i j := by coords2
  rw [val_main_v59_apply, val_main_v44_apply, e, dist0]

theorem v64_at (x : Tok.Idx → R) (i j k : Fin 256) : val_main_v64 (F := Ideal) x (ix3 i j k) = dist x i j := by
  have e : idx_main_v44 (idx_main_v64 (ix3 i j k)) = ix2 i j := by coords2
  rw [val_main_v64_apply, val_main_v44_apply, e, dist0]

theorem v50_at (x : Tok.Idx → R) (i j k : Fin 256) : val_main_v50 (F := Ideal) x (ix3 i j k) = dist x i k := by
  have e : idx_main_v45 (idx_main_v50 (ix3 i j k)) = ix2 i k := by coords2
  rw [val_main_v50_apply, val_main_v45_apply, e, dist0]

theorem v58_at (x : Tok.Idx → R) (i j k : Fin 256) : val_main_v58 (F := Ideal) x (ix3 i j k) = dist x i k := by
  have e : idx_main_v45 (idx_main_v58 (ix3 i j k)) = ix2 i k := by coords2
  rw [val_main_v58_apply, val_main_v45_apply, e, dist0]

theorem v65_at (x : Tok.Idx → R) (i j k : Fin 256) : val_main_v65 (F := Ideal) x (ix3 i j k) = dist x i k := by
  have e : idx_main_v45 (idx_main_v65 (ix3 i j k)) = ix2 i k := by coords2
  rw [val_main_v65_apply, val_main_v45_apply, e, dist0]

/-- The selections of stages %48 … %69 are the loss of the triple. -/
theorem loss_at (x0 x1 : Tok.Idx → R) (i j k : Fin 256) :
    val_main_v69 (F := Ideal) x0 x1 (ix3 i j k) = lossAt (distArr x1) (distArr x0) i j k := by
  rw [val_main_v69_apply, val_main_v48_apply, v46_at, v47_at,
    val_main_v54_apply, val_main_v53_apply, val_main_v51_apply, v49_at, v50_at,
    val_main_v52_apply, val_main_cst_13_apply, val_main_call4_v0_apply, val_main_call4_cst_apply,
    val_main_v68_apply, val_main_v57_apply, v55_at, v56_at,
    val_main_v63_apply, val_main_v62_apply, val_main_v60_apply, v58_at, v59_at,
    val_main_v61_apply, val_main_cst_14_apply, val_main_call5_v0_apply, val_main_call5_cst_apply,
    val_main_v67_apply, val_main_v66_apply, v64_at, v65_at]
  rfl

/-! ## The mask (stages %70 … %89) and the masked loss (%90) -/

/-- The mask at a triple compares the positions' 32-bit numbers: j < k, i ≠ j, i ≠ k. -/
theorem mask_at (i j k : Fin 256) :
    val_main_v89 (F := Ideal) (ix3 i j k) = counted (num i) (num j) (num k) := by
  rw [val_main_v89_apply, val_main_v84_apply, val_main_v82_apply, val_main_v78_apply,
    val_main_v76_apply, val_main_v73_apply, val_main_v72_apply,
    val_main_v77_apply, val_main_v75_apply, val_main_v74_apply,
    val_main_v83_apply, val_main_v81_apply, val_main_v79_apply, val_main_v71_apply, val_main_v70_apply,
    val_main_v80_apply, val_main_v73_apply, val_main_v72_apply,
    val_main_v88_apply, val_main_v87_apply, val_main_v85_apply, val_main_v71_apply, val_main_v70_apply,
    val_main_v86_apply, val_main_v75_apply, val_main_v74_apply]
  rfl

/-- The masked loss is the triple's term of the sum. -/
theorem term_at (x0 x1 : Tok.Idx → R) (i j k : Fin 256) :
    val_main_v90 (F := Ideal) x0 x1 (ix3 i j k) = termAt (distArr x1) (distArr x0) i j k := by
  rw [val_main_v90_apply, mask_at, loss_at, val_main_call8_v1_apply, val_main_call8_v0_apply,
    val_main_cst_15_apply]
  rfl

/-! ## The sum over the cube and the quotient (stages %91, %92) -/

/-- The reference's result is the loss. -/
theorem val_eq (x0 x1 : Tok.Idx → R) (i : S_.Idx) :
    val_main_v92 (F := Ideal) x0 x1 i = loss x0 x1 := by
  rw [val_main_v92_apply, val_main_v91_apply, val_main_cst_16_apply, val_main_cst_17_apply, sum_idx3]
  simp only [term_at]
  rfl

end Cert.Triplet.Ref

end
-- ==== Proof.lean ====
/-
  The kernel and its reference compute the same triplet ranking loss over the extended reals.

  Both programs take two token arrays [256, 768], form for each the matrix of distances between its rows
  (sqrt of max (|x_i|² + |x_j|² − 2 ⟨x_i, x_j⟩) 0, zero where that is not positive), and average over the
  256 · 255 · 254 / 2 triples (i, j, k) with j < k, i ≠ j, i ≠ k a loss that compares the two matrices' entries at
  (i, j) and (i, k) (Proof/Spec.lean: `Triplet.loss`). The reference sums the masked loss over the whole cube of
  triples at once and divides (Proof/RefValue.lean). The kernel walks a 32 × 2 × 2 grid of tiles of 8 × 128 × 128
  triples: at the first point it computes the two matrices into scratch (Proof/DistValue.lean), at every point it adds
  the tile's masked sum to a one-entry accumulator (Proof/TileValue.lean), and at the last point it divides; by
  induction on the point the accumulator holds zero plus the sums of the tiles so far, and the tiles' sums add up to
  the sum over the cube because addition of extended reals is commutative and associative (Proof/KernelValue.lean,
  Proof/Spec.lean `sum_tiles`). No step needs the inputs to be finite. The rewriting pass changed nothing in the
  kernel, so there is nothing to preserve.
-/
import proofs.«124389_j69647189671965_1_alg».proof.Defs
import proofs.«124389_j69647189671965_1_alg».proof.Proof.Gen.Kernel
import proofs.«124389_j69647189671965_1_alg».proof.Proof.Gen.Kernel.Skeleton
import proofs.«124389_j69647189671965_1_alg».proof.Proof.Gen.Kernel.Launch
import proofs.«124389_j69647189671965_1_alg».proof.Proof.Gen.Kernel.Points
import proofs.«124389_j69647189671965_1_alg».proof.Proof.Gen.Kernel.Frame
import proofs.«124389_j69647189671965_1_alg».proof.Proof.Gen.KernelIdeal
import proofs.«124389_j69647189671965_1_alg».proof.Proof.Gen.KernelIdeal.Skeleton
import proofs.«124389_j69647189671965_1_alg».proof.Proof.Gen.KernelIdeal.Launch
import proofs.«124389_j69647189671965_1_alg».proof.Proof.Gen.KernelIdeal.Points
import proofs.«124389_j69647189671965_1_alg».proof.Proof.Gen.KernelIdeal.Frame
import proofs.«124389_j69647189671965_1_alg».proof.Proof.Gen.ReferenceIdeal
import proofs.«124389_j69647189671965_1_alg».proof.Proof.Gen.ReferenceIdeal.Run
import proofs.«124389_j69647189671965_1_alg».proof.Proof.Gen.ReferenceIdeal.Read
import proofs.«124389_j69647189671965_1_alg».proof.Proof.Gen.Pre_finite_inputs
import proofs.«124389_j69647189671965_1_alg».proof.Proof.KernelValue
import proofs.«124389_j69647189671965_1_alg».proof.Proof.RefValue
import Idealize.ShloMosaic.Adequacy
import Idealize.ShloMosaic.Init

noncomputable section

namespace Cert.Proof

open Idealize.ShloMosaic Idealize.SL.Sem

/-- The kernel as printed runs, and its arguments end unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The exact-value reading of the kernel is the kernel's own text: nothing was rewritten. -/
theorem preserves : Cert.preserves_Kernel_KernelIdeal := trivial

/-- From arguments that agree, the kernel's scalar and the reference's both end at the loss of the two token arrays. -/
theorem algebraic : Cert.algebraic_KernelIdeal_ReferenceIdeal := by
  intro m ρ m' ρ' _ hagree
  refine ⟨fun c _ => Cert.Triplet.loss (Cert.KernelIdeal.Val.img m c) (Cert.KernelIdeal.Val.ehr m c),
    Cert.KernelIdeal.Val.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v92_eq]
  funext i
  rw [Cert.Triplet.Ref.val_eq, (hagree c).1, (hagree c).2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
